-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v141)) (v1 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S512 : Shape := ⟨1, ![512]⟩
abbrev S128x128 : Shape := ⟨2, ![128, 128]⟩
abbrev S128 : Shape := ⟨1, ![128]⟩
abbrev S256x128 : Shape := ⟨2, ![256, 128]⟩
abbrev S256x4 : Shape := ⟨2, ![256, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg7 : FVec F S128 .f32) (main_arg8 : FVec F S256x4 .f32) (main_arg9 : FVec F S4 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x4 .f32 := Host.absf main_arg8
  let main_cst_8 : FVec F S_ .f32 := constant S_ .f32 0x7F800000#32
  let main_v25 : FVec F S256x4 .f32 := broadcastInDim S256x4 ![] bcast_S_S256x4 main_cst_8
  let main_v26 : IVec S256x4 1 := cmpf .olt main_v24 main_v25
  let main_c_9 : IVec S_ 1 := constantI S_ 1 1#1
  let main_v27 : IVec S_ 1 := (fun x v => Host.reduce IntOp.andi x v reducesTo_S256x4_S_d0_1 h_S_) main_v26 main_c_9
  let main_v28 : IVec S_ 1 := andi main_v23 main_v27
  let main_v29 : FVec F S4 .f32 := Host.absf main_arg9
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : IVec S100000 32) (main_arg3 : IVec S512 32) (main_arg4 : FVec F S128x128 .f32) (main_arg5 : FVec F S128 .f32) (main_arg6 : FVec F S256x128 .f32) (main_arg7 : FVec F S128 .f32) (main_arg8 : FVec F S256x4 .f32) (main_arg9 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S512 : Shape := ⟨1, ![512]⟩
abbrev S128x128 : Shape := ⟨2, ![128, 128]⟩
abbrev S128 : Shape := ⟨1, ![128]⟩
abbrev S256x128 : Shape := ⟨2, ![256, 128]⟩
abbrev S256x4 : Shape := ⟨2, ![256, 4]⟩
abbrev S4 : Shape := ⟨1, ![4]⟩
abbrev S2000x128 : Shape := ⟨2, ![2000, 128]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S100000x1 : Shape := ⟨2, ![100000, 1]⟩
abbrev S100000x256 : Shape := ⟨2, ![100000, 256]⟩
abbrev S2000x256 : Shape := ⟨2, ![2000, 256]⟩
abbrev S512x256 : Shape := ⟨2, ![512, 256]⟩
abbrev S512x1 : Shape := ⟨2, ![512, 1]⟩
abbrev S512x4 : Shape := ⟨2, ![512, 4]⟩
abbrev S1x4 : Shape := ⟨2, ![1, 4]⟩

abbrev nBuf : Space → Nat
  | .hbm => 191
  | .vmem => 25
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S512, .i32⟩
  | 4 => ⟨S128x128, .f32⟩
  | 5 => ⟨S128, .f32⟩
  | 6 => ⟨S256x128, .f32⟩
  | 7 => ⟨S128, .f32⟩
  | 8 => ⟨S256x4, .f32⟩
  | 9 => ⟨S4, .f32⟩
  | 10 => ⟨S100000x128, .f32⟩
  | 11 => ⟨S100000, .i32⟩
  | 12 => ⟨S1x1000000, .i32⟩
  | 13 => ⟨S1000000, .i32⟩
  | 14 => ⟨S1100000, .i32⟩
  | 15 => ⟨S1x1000000, .i32⟩
  | 16 => ⟨S1000000, .i32⟩
  | 17 => ⟨S1100000, .i32⟩
  | 18 => ⟨S_, .f32⟩
  | 19 => ⟨S1100000, .f32⟩
  | 20 => ⟨S_, .f32⟩
  | 21 => ⟨S100000, .f32⟩
  | 22 => ⟨S1100000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S1100000, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000x128, .f32⟩
  | 60 => ⟨S1100000x1, .f32⟩
  | 61 => ⟨S1100000x128, .f32⟩
  | 62 => ⟨S1100000x128, .f32⟩
  | 63 => ⟨S_, .f32⟩
  | 64 => ⟨S100000x128, .f32⟩
  | 65 => ⟨S1100000x1, .i32⟩
  | 66 => ⟨S100000x128, .f32⟩
  | 67 => ⟨S1x128, .f32⟩
  | 68 => ⟨S100000x128, .f32⟩
  | 69 => ⟨S100000x128, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x128, .f32⟩
  | 88 => ⟨S100000x256, .f32⟩
  | 89 => ⟨S100000x128, .f32⟩
  | 90 => ⟨S100000, .i32⟩
  | 91 => ⟨S1x1000000, .i32⟩
  | 92 => ⟨S1000000, .i32⟩
  | 93 => ⟨S1100000, .i32⟩
  | 94 => ⟨S1x1000000, .i32⟩
  | 95 => ⟨S1000000, .i32⟩
  | 96 => ⟨S1100000, .i32⟩
  | 97 => ⟨S_, .f32⟩
  | 98 => ⟨S1100000, .f32⟩
  | 99 => ⟨S_, .f32⟩
  | 100 => ⟨S100000, .f32⟩
  | 101 => ⟨S1100000x1, .i32⟩
  | 102 => ⟨S100000, .f32⟩
  | 103 => ⟨S_, .f32⟩
  | 104 => ⟨S100000, .f32⟩
  | 105 => ⟨S100000, .i1⟩
  | 106 => ⟨S100000, .f32⟩
  | 107 => ⟨S_, .f32⟩
  | 108 => ⟨S_, .f32⟩
  | 109 => ⟨S100000, .f32⟩
  | 110 => ⟨S100000, .f32⟩
  | 111 => ⟨S_, .i32⟩
  | 112 => ⟨S1100000, .i32⟩
  | 113 => ⟨S1100000, .i1⟩
  | 114 => ⟨S_, .i32⟩
  | 115 => ⟨S1100000, .i32⟩
  | 116 => ⟨S1100000, .i32⟩
  | 117 => ⟨S1100000, .i32⟩
  | 118 => ⟨S1100000x1, .i32⟩
  | 119 => ⟨S1100000, .f32⟩
  | 120 => ⟨S_, .i32⟩
  | 121 => ⟨S1100000, .i32⟩
  | 122 => ⟨S1100000, .i1⟩
  | 123 => ⟨S_, .i32⟩
  | 124 => ⟨S1100000, .i32⟩
  | 125 => ⟨S1100000, .i32⟩
  | 126 => ⟨S1100000, .i32⟩
  | 127 => ⟨S1100000x1, .i32⟩
  | _ => ⟨S100000x128, .f32⟩

abbrev hbmTy0_1 (i : Nat) : BufTy := match i % 128 with
  | 0 => ⟨S1100000, .f32⟩
  | 1 => ⟨S1100000, .f32⟩
  | 2 => ⟨S_, .i32⟩
  | 3 => ⟨S1100000, .i32⟩
  | 4 => ⟨S1100000, .i1⟩
  | 5 => ⟨S_, .i32⟩
  | 6 => ⟨S1100000, .i32⟩
  | 7 => ⟨S1100000, .i32⟩
  | 8 => ⟨S1100000, .i32⟩
  | 9 => ⟨S1100000x1, .i32⟩
  | 10 => ⟨S1100000x128, .f32⟩
  | 11 => ⟨S1100000x1, .f32⟩
  | 12 => ⟨S1100000x128, .f32⟩
  | 13 => ⟨S1100000x128, .f32⟩
  | 14 => ⟨S_, .f32⟩
  | 15 => ⟨S100000x128, .f32⟩
  | 16 => ⟨S1100000x1, .i32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000, .i32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x128, .f32⟩
  | 42 => ⟨S100000x256, .f32⟩
  | 43 => ⟨S_, .f32⟩
  | 44 => ⟨S512x256, .f32⟩
  | 45 => ⟨S100000x1, .i32⟩
  | 46 => ⟨S512x256, .f32⟩
  | 47 => ⟨S_, .f32⟩
  | 48 => ⟨S100000, .f32⟩
  | 49 => ⟨S_, .f32⟩
  | 50 => ⟨S512, .f32⟩
  | 51 => ⟨S100000x1, .i32⟩
  | 52 => ⟨S512, .f32⟩
  | 53 => ⟨S_, .f32⟩
  | 54 => ⟨S512, .f32⟩
  | 55 => ⟨S512, .f32⟩
  | 56 => ⟨S512x1, .f32⟩
  | 57 => ⟨S512x256, .f32⟩
  | 58 => ⟨S512x256, .f32⟩
  | 59 => ⟨S512x4, .f32⟩
  | 60 => ⟨S1x4, .f32⟩
  | 61 => ⟨S512x4, .f32⟩
  | 62 => ⟨S512x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x256, .f32⟩
  | .local _ .vmem, ⟨21, _⟩ => ⟨S2000x256, .f32⟩
  | .local _ .vmem, ⟨22, _⟩ => ⟨S512x256, .f32⟩
  | .local _ .vmem, ⟨23, _⟩ => ⟨S256x4, .f32⟩
  | .local _ .vmem, ⟨24, _⟩ => ⟨S512x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_call1_v0 : Ref sig .tc := ⟨.hbm, 108, rfl⟩
abbrev main_call1_v1 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_19 : Ref sig .tc := ⟨.hbm, 120, rfl⟩
abbrev main_v85 : Ref sig .tc := ⟨.hbm, 121, rfl⟩
abbrev main_v86 : Ref sig .tc := ⟨.hbm, 122, rfl⟩
abbrev main_c_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_21 : Ref sig .tc := ⟨.hbm, 130, rfl⟩
abbrev main_v93 : Ref sig .tc := ⟨.hbm, 131, rfl⟩
abbrev main_v94 : Ref sig .tc := ⟨.hbm, 132, rfl⟩
abbrev main_c_22 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_24 : Ref sig .tc := ⟨.hbm, 149, rfl⟩
abbrev main_v109 : Ref sig .tc := ⟨.hbm, 150, rfl⟩
abbrev main_v110 : Ref sig .tc := ⟨.hbm, 151, rfl⟩
abbrev main_c_25 : Ref sig .tc := ⟨.hbm, 152, rfl⟩
abbrev main_v111 : Ref sig .tc := ⟨.hbm, 153, rfl⟩
abbrev main_v112 : Ref sig .tc := ⟨.hbm, 154, rfl⟩
abbrev main_c_26 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_c_27 : Ref sig .tc := ⟨.hbm, 161, rfl⟩
abbrev main_v118 : Ref sig .tc := ⟨.hbm, 162, rfl⟩
abbrev main_v119 : Ref sig .tc := ⟨.hbm, 163, rfl⟩
abbrev main_c_28 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_29 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_30 : Ref sig .tc := ⟨.hbm, 175, rfl⟩
abbrev main_v129 : Ref sig .tc := ⟨.hbm, 176, rfl⟩
abbrev main_cst_31 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_32 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S512x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  shapeCasts_S2000x128_S2000x128 : S2000x128.ShapeCasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x4_S256x4_0_0 : ∀ a, (![0, 0] : Fin 2 → Nat) a + S256x4.size a ≤ S256x4.size a
  h_S256x4 : 0 < S256x4.numel
  inb_S512x4_S512x4_0_0 : ∀ a, (![0, 0] : Fin 2 → Nat) a + S512x4.size a ≤ S512x4.size a
  h_S512x4 : 0 < S512x4.numel
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  dot_S2000x128_S128x128_S2000x128_1_0_0_1_n_n_wf : DotDims.WF S2000x128 S128x128 S2000x128 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S512_S100000x1_S100000_n_0_n_n_0_1_1_wf : GatherDims.WF S512 S100000x1 S100000 [] [0] [] [0] [] 1 ![1]
  gather_S100000x128_S100000x1_S100000x128_1_0_n_n_0_1_1128_wf : GatherDims.WF S100000x128 S100000x1 S100000x128 [1] [0] [] [0] [] 1 ![1, 128]
  dot_S2000x256_S256x128_S2000x128_1_0_0_1_n_n_wf : DotDims.WF S2000x256 S256x128 S2000x128 [1] [0] [0] [1] [] []
  scatter_S512x256_S100000x1_S100000x256_1_0_0_1_wf : ScatterDims.WF S512x256 S100000x1 S100000x256 [1] [0] [0] 1
  scatter_S512_S100000x1_S100000_n_0_0_1_wf : ScatterDims.WF S512 S100000x1 S100000 [] [0] [0] 1
  dot_S512x256_S256x4_S512x4_1_0_0_1_n_n_wf : DotDims.WF S512x256 S256x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S100000x256.size a
  hwx3_2 : ∀ i : grid3.Coords, EltTy.bits .f32 = 32 ∨ (Rect.block (s := S100000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S512x256.size a
  hwx4_0 : ∀ i : grid4.Coords, EltTy.bits .f32 = 32 ∨ (Rect.block (s := S512x256) S512x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x4.size a ≤ S256x4.size a
  hwx4_1 : ∀ i : grid4.Coords, EltTy.bits .f32 = 32 ∨ (Rect.block (s := S256x4) S256x4.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S512x4.size a ≤ S512x4.size a
  hwx4_2 : ∀ i : grid4.Coords, EltTy.bits .f32 = 32 ∨ (Rect.block (s := S512x4) S512x4.size (cc4_transform_2 i) (hinb4_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S512_S100000x1_S100000_n_0_n_n_0_1_1 : GatherDims S512 S100000x1 S100000 where
  offsetDims := []
  collapsedSliceDims := [0]
  operandBatchingDims := []
  startIndicesBatchingDims := []
  startIndexMap := [0]
  indexVectorDim := 1
  sliceSizes := ![1]
  wf := gather_S512_S100000x1_S100000_n_0_n_n_0_1_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x256_S256x4_S512x4_1_0_0_1_n_n : DotDims S512x256 S256x4 S512x4 where
  lhsContracting := [1]
  rhsContracting := [0]
  lhsNonContracting := [0]
  rhsNonContracting := [1]
  lhsBatch := []
  rhsBatch := []
  wf := dot_S512x256_S256x4_S512x4_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v110) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v124) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v125) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v137) S512x256.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S256x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v138) S512x4.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S512 : Shape := ⟨1, ![512]⟩
abbrev S128x128 : Shape := ⟨2, ![128, 128]⟩
abbrev S128 : Shape := ⟨1, ![128]⟩
abbrev S256x128 : Shape := ⟨2, ![256, 128]⟩
abbrev S256x4 : Shape := ⟨2, ![256, 4]⟩
abbrev S4 : Shape := ⟨1, ![4]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S100000x1 : Shape := ⟨2, ![100000, 1]⟩
abbrev S100000x256 : Shape := ⟨2, ![100000, 256]⟩
abbrev S512x256 : Shape := ⟨2, ![512, 256]⟩
abbrev S512x1 : Shape := ⟨2, ![512, 1]⟩
abbrev S512x4 : Shape := ⟨2, ![512, 4]⟩
abbrev S1x4 : Shape := ⟨2, ![1, 4]⟩

abbrev nBuf : Space → Nat
  | .hbm => 194
  | .vmem => 0
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S512, .i32⟩
  | 4 => ⟨S128x128, .f32⟩
  | 5 => ⟨S128, .f32⟩
  | 6 => ⟨S256x128, .f32⟩
  | 7 => ⟨S128, .f32⟩
  | 8 => ⟨S256x4, .f32⟩
  | 9 => ⟨S4, .f32⟩
  | 10 => ⟨S100000x128, .f32⟩
  | 11 => ⟨S100000, .i32⟩
  | 12 => ⟨S1x1000000, .i32⟩
  | 13 => ⟨S1000000, .i32⟩
  | 14 => ⟨S1100000, .i32⟩
  | 15 => ⟨S1x1000000, .i32⟩
  | 16 => ⟨S1000000, .i32⟩
  | 17 => ⟨S1100000, .i32⟩
  | 18 => ⟨S_, .f32⟩
  | 19 => ⟨S1100000, .f32⟩
  | 20 => ⟨S_, .f32⟩
  | 21 => ⟨S100000, .f32⟩
  | 22 => ⟨S1100000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S1100000, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000x128, .f32⟩
  | 60 => ⟨S1100000x1, .f32⟩
  | 61 => ⟨S1100000x128, .f32⟩
  | 62 => ⟨S1100000x128, .f32⟩
  | 63 => ⟨S_, .f32⟩
  | 64 => ⟨S100000x128, .f32⟩
  | 65 => ⟨S1100000x1, .i32⟩
  | 66 => ⟨S100000x128, .f32⟩
  | 67 => ⟨S1x128, .f32⟩
  | 68 => ⟨S100000x128, .f32⟩
  | 69 => ⟨S100000x128, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x128, .f32⟩
  | 88 => ⟨S100000x256, .f32⟩
  | 89 => ⟨S_, .f32⟩
  | 90 => ⟨S100000x256, .f32⟩
  | 91 => ⟨S100000x256, .f32⟩
  | 92 => ⟨S100000x128, .f32⟩
  | 93 => ⟨S100000, .i32⟩
  | 94 => ⟨S1x1000000, .i32⟩
  | 95 => ⟨S1000000, .i32⟩
  | 96 => ⟨S1100000, .i32⟩
  | 97 => ⟨S1x1000000, .i32⟩
  | 98 => ⟨S1000000, .i32⟩
  | 99 => ⟨S1100000, .i32⟩
  | 100 => ⟨S_, .f32⟩
  | 101 => ⟨S1100000, .f32⟩
  | 102 => ⟨S_, .f32⟩
  | 103 => ⟨S100000, .f32⟩
  | 104 => ⟨S1100000x1, .i32⟩
  | 105 => ⟨S100000, .f32⟩
  | 106 => ⟨S_, .f32⟩
  | 107 => ⟨S100000, .f32⟩
  | 108 => ⟨S100000, .i1⟩
  | 109 => ⟨S100000, .f32⟩
  | 110 => ⟨S_, .f32⟩
  | 111 => ⟨S_, .f32⟩
  | 112 => ⟨S100000, .f32⟩
  | 113 => ⟨S100000, .f32⟩
  | 114 => ⟨S_, .i32⟩
  | 115 => ⟨S1100000, .i32⟩
  | 116 => ⟨S1100000, .i1⟩
  | 117 => ⟨S_, .i32⟩
  | 118 => ⟨S1100000, .i32⟩
  | 119 => ⟨S1100000, .i32⟩
  | 120 => ⟨S1100000, .i32⟩
  | 121 => ⟨S1100000x1, .i32⟩
  | 122 => ⟨S1100000, .f32⟩
  | 123 => ⟨S_, .i32⟩
  | 124 => ⟨S1100000, .i32⟩
  | 125 => ⟨S1100000, .i1⟩
  | 126 => ⟨S_, .i32⟩
  | 127 => ⟨S1100000, .i32⟩
  | _ => ⟨S100000x128, .f32⟩

abbrev hbmTy0_1 (i : Nat) : BufTy := match i % 128 with
  | 0 => ⟨S1100000, .i32⟩
  | 1 => ⟨S1100000, .i32⟩
  | 2 => ⟨S1100000x1, .i32⟩
  | 3 => ⟨S1100000, .f32⟩
  | 4 => ⟨S1100000, .f32⟩
  | 5 => ⟨S_, .i32⟩
  | 6 => ⟨S1100000, .i32⟩
  | 7 => ⟨S1100000, .i1⟩
  | 8 => ⟨S_, .i32⟩
  | 9 => ⟨S1100000, .i32⟩
  | 10 => ⟨S1100000, .i32⟩
  | 11 => ⟨S1100000, .i32⟩
  | 12 => ⟨S1100000x1, .i32⟩
  | 13 => ⟨S1100000x128, .f32⟩
  | 14 => ⟨S1100000x1, .f32⟩
  | 15 => ⟨S1100000x128, .f32⟩
  | 16 => ⟨S1100000x128, .f32⟩
  | 17 => ⟨S_, .f32⟩
  | 18 => ⟨S100000x128, .f32⟩
  | 19 => ⟨S1100000x1, .i32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000, .i32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x128, .f32⟩
  | 45 => ⟨S100000x256, .f32⟩
  | 46 => ⟨S_, .f32⟩
  | 47 => ⟨S512x256, .f32⟩
  | 48 => ⟨S100000x1, .i32⟩
  | 49 => ⟨S512x256, .f32⟩
  | 50 => ⟨S_, .f32⟩
  | 51 => ⟨S100000, .f32⟩
  | 52 => ⟨S_, .f32⟩
  | 53 => ⟨S512, .f32⟩
  | 54 => ⟨S100000x1, .i32⟩
  | 55 => ⟨S512, .f32⟩
  | 56 => ⟨S_, .f32⟩
  | 57 => ⟨S512, .f32⟩
  | 58 => ⟨S512, .f32⟩
  | 59 => ⟨S512x1, .f32⟩
  | 60 => ⟨S512x256, .f32⟩
  | 61 => ⟨S512x256, .f32⟩
  | 62 => ⟨S512x4, .f32⟩
  | 63 => ⟨S1x4, .f32⟩
  | 64 => ⟨S512x4, .f32⟩
  | 65 => ⟨S512x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_call2_v0 : Ref sig .tc := ⟨.hbm, 111, rfl⟩
abbrev main_call2_v1 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_19 : Ref sig .tc := ⟨.hbm, 123, rfl⟩
abbrev main_v86 : Ref sig .tc := ⟨.hbm, 124, rfl⟩
abbrev main_v87 : Ref sig .tc := ⟨.hbm, 125, rfl⟩
abbrev main_c_20 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_21 : Ref sig .tc := ⟨.hbm, 133, rfl⟩
abbrev main_v94 : Ref sig .tc := ⟨.hbm, 134, rfl⟩
abbrev main_v95 : Ref sig .tc := ⟨.hbm, 135, rfl⟩
abbrev main_c_22 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_23 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_call3_cst : Ref sig .tc := ⟨.hbm, 152, rfl⟩
abbrev main_call3_v0 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_c_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_26 : Ref sig .tc := ⟨.hbm, 164, rfl⟩
abbrev main_v118 : Ref sig .tc := ⟨.hbm, 165, rfl⟩
abbrev main_v119 : Ref sig .tc := ⟨.hbm, 166, rfl⟩
abbrev main_c_27 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_28 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_29 : Ref sig .tc := ⟨.hbm, 178, rfl⟩
abbrev main_v129 : Ref sig .tc := ⟨.hbm, 179, rfl⟩
abbrev main_cst_30 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_31 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  bcast_S_S100000x256 : S_.BroadcastsInDim S100000x256 (![] : Fin 0 → Fin S100000x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  dot_S100000x128_S128x128_S100000x128_1_0_0_1_n_n_wf : DotDims.WF S100000x128 S128x128 S100000x128 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S512_S100000x1_S100000_n_0_n_n_0_1_1_wf : GatherDims.WF S512 S100000x1 S100000 [] [0] [] [0] [] 1 ![1]
  gather_S100000x128_S100000x1_S100000x128_1_0_n_n_0_1_1128_wf : GatherDims.WF S100000x128 S100000x1 S100000x128 [1] [0] [] [0] [] 1 ![1, 128]
  dot_S100000x256_S256x128_S100000x128_1_0_0_1_n_n_wf : DotDims.WF S100000x256 S256x128 S100000x128 [1] [0] [0] [1] [] []
  scatter_S512x256_S100000x1_S100000x256_1_0_0_1_wf : ScatterDims.WF S512x256 S100000x1 S100000x256 [1] [0] [0] 1
  scatter_S512_S100000x1_S100000_n_0_0_1_wf : ScatterDims.WF S512 S100000x1 S100000 [] [0] [0] 1
  dot_S512x256_S256x4_S512x4_1_0_0_1_n_n_wf : DotDims.WF S512x256 S256x4 S512x4 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S512_S100000x1_S100000_n_0_n_n_0_1_1 : GatherDims S512 S100000x1 S100000 where
  offsetDims := []
  collapsedSliceDims := [0]
  operandBatchingDims := []
  startIndicesBatchingDims := []
  startIndexMap := [0]
  indexVectorDim := 1
  sliceSizes := ![1]
  wf := gather_S512_S100000x1_S100000_n_0_n_n_0_1_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x256_S256x4_S512x4_1_0_0_1_n_n : DotDims S512x256 S256x4 S512x4 where
  lhsContracting := [1]
  rhsContracting := [0]
  lhsNonContracting := [0]
  rhsNonContracting := [1]
  lhsBatch := []
  rhsBatch := []
  wf := dot_S512x256_S256x4_S512x4_1_0_0_1_n_n_wf

class Facts : Prop extends Facts₀ where

variable [Facts]
-- ==== Proof.HostRead.lean ====
/-
  Reading a buffer after a stretch of host operations when some operation joins two arrays.  A join's operands sit in a
  list of (shape, array) pairs, where rewriting does not reach them; stated with the two operands as plain arguments
  (`join2`) the same join is one more function of its operands, and the one-pass read-back of a stretch goes through it.
-/
import Idealize.ShloMosaic.Lib.StableHlo.Run

noncomputable section

namespace Cert.HostRead

open Idealize.ShloMosaic Idealize.ShloMosaic.StableHlo

/-- Two arrays joined along an axis, the operands as plain arguments. -/
def join2 {α : Type} (t : Shape) (a : Fin t.rank) (s₁ s₂ : Shape) (x : s₁.Idx → α) (y : s₂.Idx → α)
    (h : Shape.Concatenates [s₁, s₂] t a) : t.Idx → α := concatenate t a [⟨s₁, x⟩, ⟨s₂, y⟩] h

/-- The join of a two-element list of pairs is `join2` of the two arrays. -/
theorem concatenate_pair_eq_join2 {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = join2 t a s₁ s₂ x y h := rfl

end Cert.HostRead

/-- The contents of one buffer after a literal list of host operations, in one rewriting pass: each operation's result
    at its own buffer is its function of its operands' contents, at any other buffer what was there; a two-array join is
    read through `join2` so that its operands are read too. -/
macro "after_results_join" : tactic =>
  `(tactic| (simp (disch := decide) only [Idealize.ShloMosaic.StableHlo.after_cons, Idealize.ShloMosaic.StableHlo.after_nil,
      Cert.HostRead.concatenate_pair_eq_join2,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne']))

end
-- ==== Proof.KernelRun.lean ====
/-
  The idealized kernel's run with its two results NAMED.  @main is thirteen segments — five pipelined regions among eight
  stretches of host operations — and the buffer contents at each segment boundary are a fold from the launch memory: a
  stretch applies its operations, a region leaves its arrays at what its write-backs fold to and every other buffer as
  it was.  Every weakly fair execution ends with each unscoped buffer at the last boundary's contents; read at the two
  result buffers that is the value this module states, beside the ten argument arrays as launched.
-/
import proofs.«175130_j69063074119744_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last segment
    boundary's contents and the argument arrays as launched. -/
theorem run_results : θ_run defs (onTc (τ := τ) (main (F := F))) ⟨m, fun _ => 0, ρ⟩ (fun r => ∀ c : Dev nD,
      r.2.mem ((c.tc : Thread nD τ).loc main_v141) = W13 m ρ c (Proc.devRef .tc main_v141)
      ∧ r.2.mem ((c.tc : Thread nD τ).loc main_v125) = W13 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v141 (by decide)),
       h c _ (mem_uc main_v125 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.RunValue

end
-- ==== Proof.HostWrites.lean ====
/-
  Which buffers each stretch of host operations of the kernel's program writes, and hence which it leaves alone: a
  buffer outside a stretch's list of written buffers holds after the stretch what it held before.  Membership in a list
  of buffer names is decided in one pass, so every later "this stretch does not touch that buffer" is one line.
-/
import proofs.«175130_j69063074119744_1_alg».proof.Proof.Gen.KernelIdeal.Launch
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The buffers `hostOps1`'s operations write. -/
abbrev hostOps1_W : List (Ref sig .tc) := [main_v1, main_v2, main_v3, main_v4, main_v5, main_v6, main_v7, main_cst, main_v8, main_cst_0, main_v9, main_v10, main_v11, main_cst_1, main_v12, main_v13, main_v14, main_cst_2]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_1`'s operations write. -/
abbrev hostOps1_1_W : List (Ref sig .tc) := [main_call0_v0, main_call0_v1, main_v15]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_2`'s operations write. -/
abbrev hostOps1_2_W : List (Ref sig .tc) := [main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_c_9, main_v47, main_v48, main_c_10, main_v49, main_v50, main_v51, main_v52, main_v53, main_c_11, main_v54, main_v55, main_c_12, main_v56, main_v57, main_v58, main_v59, main_v60]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3`'s operations write. -/
abbrev hostOps3_W : List (Ref sig .tc) := [main_v63, main_v64, main_v65, main_v66, main_v67, main_v68, main_v69, main_cst_13, main_v70, main_cst_14, main_v71, main_v72, main_v73, main_cst_15, main_v74, main_v75, main_v76, main_cst_16]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3_1`'s operations write. -/
abbrev hostOps3_1_W : List (Ref sig .tc) := [main_call1_v0, main_call1_v1, main_v77]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3_2`'s operations write. -/
abbrev hostOps3_2_W : List (Ref sig .tc) := [main_c_17, main_v78, main_v79, main_c_18, main_v80, main_v81, main_v82, main_v83, main_v84, main_c_19, main_v85, main_v86, main_c_20, main_v87, main_v88, main_v89, main_v90, main_v91, main_v92, main_c_21, main_v93, main_v94, main_c_22, main_v95, main_v96, main_v97, main_v98, main_v99, main_v100, main_v101, main_v102, main_cst_23, main_v103, main_v104, main_v105, main_v106, main_v107, main_v108, main_cst_24, main_v109, main_v110, main_c_25, main_v111, main_v112, main_c_26, main_v113, main_v114, main_v115, main_v116, main_v117, main_c_27, main_v118, main_v119, main_c_28, main_v120, main_v121, main_v122, main_v123, main_v124]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps4`'s operations write. -/
abbrev hostOps4_W : List (Ref sig .tc) := [main_cst_29, main_v126, main_v127, main_v128, main_cst_30, main_v129, main_cst_31, main_v130, main_v131, main_v132, main_cst_32, main_v133, main_v134, main_v135, main_v136, main_v137]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps5`'s operations write. -/
abbrev hostOps5_W : List (Ref sig .tc) := [main_v139, main_v140, main_v141]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The three stretches between the first product and the first join leave a buffer none of them writes. -/
theorem pass1 (W : Valuation τ sig (Elt F)) (r : Ref sig .tc) (h : r ∉ hostOps1_W) (h' : r ∉ hostOps1_1_W) (h'' : r ∉ hostOps1_2_W) :
    StableHlo.after hostOps1_2 (StableHlo.after hostOps1_1 (StableHlo.after hostOps1 W)) (Proc.devRef .tc r) = W (Proc.devRef .tc r) :=
  (StableHlo.after_of_writes_sub hostOps1_2 _ hostOps1_2_writes h'').trans
    ((StableHlo.after_of_writes_sub hostOps1_1 _ hostOps1_1_writes h').trans
      (StableHlo.after_of_writes_sub hostOps1 _ hostOps1_writes h))

/-- The three stretches between the second product and the second join leave a buffer none of them writes. -/
theorem pass3 (W : Valuation τ sig (Elt F)) (r : Ref sig .tc) (h : r ∉ hostOps3_W) (h' : r ∉ hostOps3_1_W) (h'' : r ∉ hostOps3_2_W) :
    StableHlo.after hostOps3_2 (StableHlo.after hostOps3_1 (StableHlo.after hostOps3 W)) (Proc.devRef .tc r) = W (Proc.devRef .tc r) :=
  (StableHlo.after_of_writes_sub hostOps3_2 _ hostOps3_2_writes h'').trans
    ((StableHlo.after_of_writes_sub hostOps3_1 _ hostOps3_1_writes h').trans
      (StableHlo.after_of_writes_sub hostOps3 _ hostOps3_writes h))

/-- The pooling stretch leaves a buffer it does not write. -/
theorem pass4 (W : Valuation τ sig (Elt F)) (r : Ref sig .tc) (h : r ∉ hostOps4_W) :
    StableHlo.after hostOps4 W (Proc.devRef .tc r) = W (Proc.devRef .tc r) :=
  StableHlo.after_of_writes_sub hostOps4 _ hostOps4_writes h

/-- The last stretch leaves a buffer it does not write. -/
theorem pass5 (W : Valuation τ sig (Elt F)) (r : Ref sig .tc) (h : r ∉ hostOps5_W) :
    StableHlo.after hostOps5 W (Proc.devRef .tc r) = W (Proc.devRef .tc r) :=
  StableHlo.after_of_writes_sub hostOps5 _ hostOps5_writes h

end Cert.KernelIdeal.HostValue

end
-- ==== Proof.Host1.lean ====
/-
  The stretches of host operations between the first matrix product and the first join: a graph convolution's
  aggregation — self-loops appended to the edge list, the in-degree by a scatter-add of ones, its inverse square root
  where positive, the symmetric edge weight, the gather of the projected source rows, their scatter-add into the
  destination rows, the bias — and the root row of each node's graph gathered from the input features.  From ANY buffer
  contents whose product buffer holds the reference's first product stage and whose argument buffers hold the arguments,
  the two buffers the join reads end at the reference's stages: the stretches are the reference's own operations.
-/
import proofs.«175130_j69063074119744_1_alg».proof.Proof.Gen.KernelIdeal.Launch
import proofs.«175130_j69063074119744_1_alg».proof.Proof.RefRead
import proofs.«175130_j69063074119744_1_alg».proof.Proof.HostRead
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The first convolution's output: the normalised neighbourhood sums of the projected features, plus the bias. -/
theorem host1_v46 (W : Valuation τ sig (Elt F)) (x0 : (⟨Cert.ReferenceIdeal.S100000x128, .f32⟩ : BufTy).Contents (Elt F)) (x1 : (⟨Cert.ReferenceIdeal.S2x1000000, .i32⟩ : BufTy).Contents (Elt F)) (x4 : (⟨Cert.ReferenceIdeal.S128x128, .f32⟩ : BufTy).Contents (Elt F)) (x5 : (⟨Cert.ReferenceIdeal.S128, .f32⟩ : BufTy).Contents (Elt F))
    (h0 : W (Proc.devRef .tc main_v0) = Cert.ReferenceIdeal.ReadP.val_main_v0 (F := F) x0 x4)
    (h1 : W (Proc.devRef .tc main_arg1) = x1) (h5 : W (Proc.devRef .tc main_arg5) = x5) :
    StableHlo.after hostOps1_2 (StableHlo.after hostOps1_1 (StableHlo.after hostOps1 W)) (Proc.devRef .tc main_v46)
      = Cert.ReferenceIdeal.ReadP.val_main_v46 (F := F) x0 x1 x4 x5 := by
  after_results_join
  rw [h0, h1, h5]
  rfl

/-- Each node's root row: the input features gathered at the root index of the node's graph. -/
theorem host1_v60 (W : Valuation τ sig (Elt F)) (x0 : (⟨Cert.ReferenceIdeal.S100000x128, .f32⟩ : BufTy).Contents (Elt F)) (x2 : (⟨Cert.ReferenceIdeal.S100000, .i32⟩ : BufTy).Contents (Elt F)) (x3 : (⟨Cert.ReferenceIdeal.S512, .i32⟩ : BufTy).Contents (Elt F))
    (h0 : W (Proc.devRef .tc main_arg0) = x0) (h2 : W (Proc.devRef .tc main_arg2) = x2)
    (h3 : W (Proc.devRef .tc main_arg3) = x3) :
    StableHlo.after hostOps1_2 (StableHlo.after hostOps1_1 (StableHlo.after hostOps1 W)) (Proc.devRef .tc main_v60)
      = Cert.ReferenceIdeal.ReadP.val_main_v60 (F := F) x0 x2 x3 := by
  after_results_join
  rw [h0, h2, h3]
  rfl

end Cert.KernelIdeal.HostValue

end
-- ==== Proof.Host3.lean ====
/-
  The stretches of host operations between the second matrix product and the second join: the second graph
  convolution's aggregation (the same edge weights, recomputed), its bias and the clamp at zero, and the root row of
  each node's graph gathered from the FIRST convolution's output.  From ANY buffer contents whose product buffer holds
  the reference's second product stage, whose first-convolution buffer holds that stage and whose argument buffers hold
  the arguments, the two buffers the join reads end at the reference's stages.
-/
import proofs.«175130_j69063074119744_1_alg».proof.Proof.Gen.KernelIdeal.Launch
import proofs.«175130_j69063074119744_1_alg».proof.Proof.RefRead
import proofs.«175130_j69063074119744_1_alg».proof.Proof.HostRead
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The second convolution's output clamped at zero. -/
theorem host3_v110 (W : Valuation τ sig (Elt F)) (x0 : (⟨Cert.ReferenceIdeal.S100000x128, .f32⟩ : BufTy).Contents (Elt F)) (x1 : (⟨Cert.ReferenceIdeal.S2x1000000, .i32⟩ : BufTy).Contents (Elt F)) (x2 : (⟨Cert.ReferenceIdeal.S100000, .i32⟩ : BufTy).Contents (Elt F)) (x3 : (⟨Cert.ReferenceIdeal.S512, .i32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S256x128, .f32⟩ : BufTy).Contents (Elt F)) (x7 : (⟨Cert.ReferenceIdeal.S128, .f32⟩ : BufTy).Contents (Elt F))
    (h62 : W (Proc.devRef .tc main_v62) = Cert.ReferenceIdeal.ReadP.val_main_v63 (F := F) x0 x1 x2 x3 x4 x5 x6)
    (h1 : W (Proc.devRef .tc main_arg1) = x1) (h7 : W (Proc.devRef .tc main_arg7) = x7) :
    StableHlo.after hostOps3_2 (StableHlo.after hostOps3_1 (StableHlo.after hostOps3 W)) (Proc.devRef .tc main_v110)
      = Cert.ReferenceIdeal.ReadP.val_main_v110 (F := F) x0 x1 x2 x3 x4 x5 x6 x7 := by
  after_results_join
  rw [h62, h1, h7]
  rfl

/-- Each node's root row of the first convolution's output. -/
theorem host3_v124 (W : Valuation τ sig (Elt F)) (x0 : (⟨Cert.ReferenceIdeal.S100000x128, .f32⟩ : BufTy).Contents (Elt F)) (x1 : (⟨Cert.ReferenceIdeal.S2x1000000, .i32⟩ : BufTy).Contents (Elt F)) (x2 : (⟨Cert.ReferenceIdeal.S100000, .i32⟩ : BufTy).Contents (Elt F)) (x3 : (⟨Cert.ReferenceIdeal.S512, .i32⟩ : BufTy).Contents (Elt F)) (x4 : (⟨Cert.ReferenceIdeal.S128x128, .f32⟩ : BufTy).Contents (Elt F)) (x5 : (⟨Cert.ReferenceIdeal.S128, .f32⟩ : BufTy).Contents (Elt F))
    (h46 : W (Proc.devRef .tc main_v46) = Cert.ReferenceIdeal.ReadP.val_main_v46 (F := F) x0 x1 x4 x5)
    (h2 : W (Proc.devRef .tc main_arg2) = x2) (h3 : W (Proc.devRef .tc main_arg3) = x3) :
    StableHlo.after hostOps3_2 (StableHlo.after hostOps3_1 (StableHlo.after hostOps3 W)) (Proc.devRef .tc main_v124)
      = Cert.ReferenceIdeal.ReadP.val_main_v124 (F := F) x0 x1 x2 x3 x4 x5 := by
  after_results_join
  rw [h46, h2, h3]
  rfl

end Cert.KernelIdeal.HostValue

end
-- ==== Proof.Host4.lean ====
/-
  The stretch of host operations between the second join and the last matrix product: the per-graph sums of the node
  features (a scatter-add by the graph index), the per-graph node counts, and the quotient by the count clamped below at
  one.  From ANY buffer contents whose feature buffer holds the reference's feature stage and whose graph-index buffer
  holds the graph index, the pooled buffer ends at the reference's pooled stage: the stretch is the reference's own
  sixteen operations.
-/
import proofs.«175130_j69063074119744_1_alg».proof.Proof.Gen.KernelIdeal.Launch
import proofs.«175130_j69063074119744_1_alg».proof.Proof.RefRead
import proofs.«175130_j69063074119744_1_alg».proof.Proof.HostRead
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The pooled features: per-graph sums over per-graph counts. -/
theorem host4_v137 (W : Valuation τ sig (Elt F)) (x0 : (⟨Cert.ReferenceIdeal.S100000x128, .f32⟩ : BufTy).Contents (Elt F)) (x1 : (⟨Cert.ReferenceIdeal.S2x1000000, .i32⟩ : BufTy).Contents (Elt F)) (x2 : (⟨Cert.ReferenceIdeal.S100000, .i32⟩ : BufTy).Contents (Elt F)) (x3 : (⟨Cert.ReferenceIdeal.S512, .i32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S256x128, .f32⟩ : BufTy).Contents (Elt F)) (x7 : (⟨Cert.ReferenceIdeal.S128, .f32⟩ : BufTy).Contents (Elt F))
    (h125 : W (Proc.devRef .tc main_v125) = Cert.ReferenceIdeal.ReadP.val_main_v125 (F := F) x0 x1 x2 x3 x4 x5 x6 x7)
    (h2 : W (Proc.devRef .tc main_arg2) = x2) :
    StableHlo.after hostOps4 W (Proc.devRef .tc main_v137)
      = Cert.ReferenceIdeal.ReadP.val_main_v137 (F := F) x0 x1 x2 x3 x4 x5 x6 x7 := by
  after_results_join
  rw [h125, h2]
  rfl

end Cert.KernelIdeal.HostValue

end
-- ==== Proof.Host5.lean ====
/-
  The last stretch of host operations of the kernel's program: the class bias laid as one row, repeated down the 512
  rows and added to the last matrix product.  From ANY buffer contents whose product buffer holds the reference's product
  stage and whose bias buffer holds the bias, the result buffer ends at the reference's last stage: the stretch is the
  reference's own last three operations.
-/
import proofs.«175130_j69063074119744_1_alg».proof.Proof.Gen.KernelIdeal.Launch
import proofs.«175130_j69063074119744_1_alg».proof.Proof.RefRead
import proofs.«175130_j69063074119744_1_alg».proof.Proof.HostRead
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The logits: the pooled product plus the bias row. -/
theorem host5_v141 (W : Valuation τ sig (Elt F)) (x0 : (⟨Cert.ReferenceIdeal.S100000x128, .f32⟩ : BufTy).Contents (Elt F)) (x1 : (⟨Cert.ReferenceIdeal.S2x1000000, .i32⟩ : BufTy).Contents (Elt F)) (x2 : (⟨Cert.ReferenceIdeal.S100000, .i32⟩ : BufTy).Contents (Elt F)) (x3 : (⟨Cert.ReferenceIdeal.S512, .i32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S256x128, .f32⟩ : BufTy).Contents (Elt F)) (x7 : (⟨Cert.ReferenceIdeal.S128, .f32⟩ : BufTy).Contents (Elt F)) (x8 : (⟨Cert.ReferenceIdeal.S256x4, .f32⟩ : BufTy).Contents (Elt F)) (x9 : (⟨Cert.ReferenceIdeal.S4, .f32⟩ : BufTy).Contents (Elt F))
    (h138 : W (Proc.devRef .tc main_v138) = Cert.ReferenceIdeal.ReadP.val_main_v138 (F := F) x0 x1 x2 x3 x4 x5 x6 x7 x8)
    (h9 : W (Proc.devRef .tc main_arg9) = x9) :
    StableHlo.after hostOps5 W (Proc.devRef .tc main_v141)
      = Cert.ReferenceIdeal.ReadP.val_main_v141 (F := F) x0 x1 x2 x3 x4 x5 x6 x7 x8 x9 := by
  after_results_join
  rw [h138, h9]
  rfl

end Cert.KernelIdeal.HostValue

end
-- ==== Proof.Bridge.lean ====
/-
  The idealized kernel's two results as the reference's stages of the argument arrays.

  The kernel's program alternates five pipelined regions with stretches of host operations that are, operation for
  operation, the reference's own.  Walking the buffer contents from the launch to the return: the first region's output
  array is the reference's first matrix product of the arguments; the host stretch after it turns that product and the
  arguments into the first convolution's output and the root rows exactly as the reference does; the second region joins
  and clamps them as the reference's join and clamp; the third is the second matrix product; and so on to the logits.
  At every boundary the buffers the next segment reads hold the reference's stages, and the buffers no segment in
  between writes hold what they held.  What each region leaves in its output array is taken here as a hypothesis
  (`RegionFacts`), proved region by region elsewhere.
-/
import proofs.«175130_j69063074119744_1_alg».proof.Proof.Gen.KernelIdeal.Frame
import proofs.«175130_j69063074119744_1_alg».proof.Proof.RefRead
import proofs.«175130_j69063074119744_1_alg».proof.Proof.KernelRun
import proofs.«175130_j69063074119744_1_alg».proof.Proof.HostWrites
import proofs.«175130_j69063074119744_1_alg».proof.Proof.Host1
import proofs.«175130_j69063074119744_1_alg».proof.Proof.Host3
import proofs.«175130_j69063074119744_1_alg».proof.Proof.Host4
import proofs.«175130_j69063074119744_1_alg».proof.Proof.Host5

set_option maxRecDepth 16384

noncomputable section

namespace Cert.KernelIdeal.Bridge

open Cert.KernelIdeal Cert.KernelIdeal.Gen Cert.KernelIdeal.HostValue
open Idealize.ShloMosaic Idealize.ShloMosaic.TcCoe Idealize.SL.Sem
open Idealize.ShloMosaic.Pipeline (Dat)
open Cert.ReferenceIdeal.ReadP (val_main_v0 val_main_v46 val_main_v60 val_main_v61 val_main_v62 val_main_v63 val_main_v110 val_main_v124
  val_main_v125 val_main_v137 val_main_v138 val_main_v141 val_main_call1_v0)

/-- What each of the five regions leaves in its output array, as a function of the arrays it reads, whatever the
    buffer contents it is entered from: the three matrix products, the join under the clamp at zero, the plain join. -/
structure RegionFacts : Prop where
  mm0 : ∀ (V : (c : Dev nD) → (b : Ref sig .tc) → Buf (Elt Ideal) ((c : Thread nD τ).loc b)) (c : Dev nD),
    (dat0 (F := Ideal) V c).arrAt 2 cfg0.N = val_main_v0 (F := Ideal) (V c main_arg0) (V c main_arg4)
  cc1 : ∀ (V : (c : Dev nD) → (b : Ref sig .tc) → Buf (Elt Ideal) ((c : Thread nD τ).loc b)) (c : Dev nD),
    (dat1 (F := Ideal) V c).arrAt 2 cfg1.N
      = maximumf (F := Ideal) (φ := .f32) (concatenate Cert.ReferenceIdeal.S100000x256 1 [⟨Cert.ReferenceIdeal.S100000x128, V c main_v46⟩, ⟨Cert.ReferenceIdeal.S100000x128, V c main_v60⟩] Cert.ReferenceIdeal.Gen.concatenates_S100000x128_S100000x128_S100000x256_d1) (val_main_call1_v0 (F := Ideal))
  mm2 : ∀ (V : (c : Dev nD) → (b : Ref sig .tc) → Buf (Elt Ideal) ((c : Thread nD τ).loc b)) (c : Dev nD),
    (dat2 (F := Ideal) V c).arrAt 2 cfg2.N
      = Host.dotGeneral (F := Ideal) (φ₁ := .f32) (φ₂ := .f32) Cert.ReferenceIdeal.dot_S100000x256_S256x128_S100000x128_1_0_0_1_n_n none (V c main_v61) (V c main_arg6)
  cc3 : ∀ (V : (c : Dev nD) → (b : Ref sig .tc) → Buf (Elt Ideal) ((c : Thread nD τ).loc b)) (c : Dev nD),
    (dat3 (F := Ideal) V c).arrAt 2 cfg3.N = (concatenate Cert.ReferenceIdeal.S100000x256 1 [⟨Cert.ReferenceIdeal.S100000x128, V c main_v110⟩, ⟨Cert.ReferenceIdeal.S100000x128, V c main_v124⟩] Cert.ReferenceIdeal.Gen.concatenates_S100000x128_S100000x128_S100000x256_d1)
  mm4 : ∀ (V : (c : Dev nD) → (b : Ref sig .tc) → Buf (Elt Ideal) ((c : Thread nD τ).loc b)) (c : Dev nD),
    (dat4 (F := Ideal) V c).arrAt 2 cfg4.N
      = Host.dotGeneral (F := Ideal) (φ₁ := .f32) (φ₂ := .f32) Cert.ReferenceIdeal.dot_S512x256_S256x4_S512x4_1_0_0_1_n_n none (V c main_v137) (V c main_arg8)

variable (m : (ℓ : Loc nD τ sig) → Buf (Elt Ideal) ℓ) (ρ : Dev nD → PrngReg) (c : Dev nD)

/-! ## The argument arrays as launched -/

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)

/-! ## After the first region: the first product, and the arguments untouched -/

theorem W1_v0 (H : RegionFacts) : W1 m ρ c (Proc.devRef .tc main_v0) = val_main_v0 (F := Ideal) (a0 m c) (a4 m c) :=
  (W1_arr m ρ c 2).trans (H.mm0 (V0 m ρ) c)
theorem W1_arg0 : W1 m ρ c (Proc.devRef .tc main_arg0) = a0 m c :=
  (W1_arr m ρ c 0).trans (((dat0 (V0 m ρ) c).arrAt_in 0 rfl _).trans (A_eq0 (V0 m ρ) c 0))
theorem W1_arg1 : W1 m ρ c (Proc.devRef .tc main_arg1) = a1 m c := W1_of_ne m ρ c main_arg1 (by decide)
theorem W1_arg2 : W1 m ρ c (Proc.devRef .tc main_arg2) = a2 m c := W1_of_ne m ρ c main_arg2 (by decide)
theorem W1_arg3 : W1 m ρ c (Proc.devRef .tc main_arg3) = a3 m c := W1_of_ne m ρ c main_arg3 (by decide)
theorem W1_arg5 : W1 m ρ c (Proc.devRef .tc main_arg5) = a5 m c := W1_of_ne m ρ c main_arg5 (by decide)
theorem W1_arg6 : W1 m ρ c (Proc.devRef .tc main_arg6) = a6 m c := W1_of_ne m ρ c main_arg6 (by decide)
theorem W1_arg7 : W1 m ρ c (Proc.devRef .tc main_arg7) = a7 m c := W1_of_ne m ρ c main_arg7 (by decide)
theorem W1_arg8 : W1 m ρ c (Proc.devRef .tc main_arg8) = a8 m c := W1_of_ne m ρ c main_arg8 (by decide)
theorem W1_arg9 : W1 m ρ c (Proc.devRef .tc main_arg9) = a9 m c := W1_of_ne m ρ c main_arg9 (by decide)

/-! ## After the first convolution's host stretch -/

theorem W4_v46 (H : RegionFacts) :
    W4 m ρ c (Proc.devRef .tc main_v46) = val_main_v46 (F := Ideal) (a0 m c) (a1 m c) (a4 m c) (a5 m c) :=
  host1_v46 (W1 m ρ c) _ _ _ _ (W1_v0 m ρ c H) (W1_arg1 m ρ c) (W1_arg5 m ρ c)
theorem W4_v60 : W4 m ρ c (Proc.devRef .tc main_v60) = val_main_v60 (F := Ideal) (a0 m c) (a2 m c) (a3 m c) :=
  host1_v60 (W1 m ρ c) _ _ _ (W1_arg0 m ρ c) (W1_arg2 m ρ c) (W1_arg3 m ρ c)
theorem W4_arg1 : W4 m ρ c (Proc.devRef .tc main_arg1) = a1 m c :=
  (pass1 (W1 m ρ c) main_arg1 (by decide) (by decide) (by decide)).trans (W1_arg1 m ρ c)
theorem W4_arg2 : W4 m ρ c (Proc.devRef .tc main_arg2) = a2 m c :=
  (pass1 (W1 m ρ c) main_arg2 (by decide) (by decide) (by decide)).trans (W1_arg2 m ρ c)
theorem W4_arg3 : W4 m ρ c (Proc.devRef .tc main_arg3) = a3 m c :=
  (pass1 (W1 m ρ c) main_arg3 (by decide) (by decide) (by decide)).trans (W1_arg3 m ρ c)
theorem W4_arg6 : W4 m ρ c (Proc.devRef .tc main_arg6) = a6 m c :=
  (pass1 (W1 m ρ c) main_arg6 (by decide) (by decide) (by decide)).trans (W1_arg6 m ρ c)
theorem W4_arg7 : W4 m ρ c (Proc.devRef .tc main_arg7) = a7 m c :=
  (pass1 (W1 m ρ c) main_arg7 (by decide) (by decide) (by decide)).trans (W1_arg7 m ρ c)
theorem W4_arg8 : W4 m ρ c (Proc.devRef .tc main_arg8) = a8 m c :=
  (pass1 (W1 m ρ c) main_arg8 (by decide) (by decide) (by decide)).trans (W1_arg8 m ρ c)
theorem W4_arg9 : W4 m ρ c (Proc.devRef .tc main_arg9) = a9 m c :=
  (pass1 (W1 m ρ c) main_arg9 (by decide) (by decide) (by decide)).trans (W1_arg9 m ρ c)

/-! ## After the second region: the join under the clamp -/

theorem W5_v61 (H : RegionFacts) :
    W5 m ρ c (Proc.devRef .tc main_v61) = val_main_v62 (F := Ideal) (a0 m c) (a1 m c) (a2 m c) (a3 m c) (a4 m c) (a5 m c) := by
  refine (W5_arr m ρ c 2).trans ((H.cc1 (V4 m ρ) c).trans ?_)
  rw [show V4 m ρ c main_v46 = _ from W4_v46 m ρ c H, show V4 m ρ c main_v60 = _ from W4_v60 m ρ c]
  rfl
theorem W5_v46 (H : RegionFacts) :
    W5 m ρ c (Proc.devRef .tc main_v46) = val_main_v46 (F := Ideal) (a0 m c) (a1 m c) (a4 m c) (a5 m c) :=
  ((W5_arr m ρ c 0).trans (((dat1 (V4 m ρ) c).arrAt_in 0 rfl _).trans (A_eq1 (V4 m ρ) c 0))).trans (W4_v46 m ρ c H)
theorem W5_arg1 : W5 m ρ c (Proc.devRef .tc main_arg1) = a1 m c := (W5_of_ne m ρ c main_arg1 (by decide)).trans (W4_arg1 m ρ c)
theorem W5_arg2 : W5 m ρ c (Proc.devRef .tc main_arg2) = a2 m c := (W5_of_ne m ρ c main_arg2 (by decide)).trans (W4_arg2 m ρ c)
theorem W5_arg3 : W5 m ρ c (Proc.devRef .tc main_arg3) = a3 m c := (W5_of_ne m ρ c main_arg3 (by decide)).trans (W4_arg3 m ρ c)
theorem W5_arg6 : W5 m ρ c (Proc.devRef .tc main_arg6) = a6 m c := (W5_of_ne m ρ c main_arg6 (by decide)).trans (W4_arg6 m ρ c)
theorem W5_arg7 : W5 m ρ c (Proc.devRef .tc main_arg7) = a7 m c := (W5_of_ne m ρ c main_arg7 (by decide)).trans (W4_arg7 m ρ c)
theorem W5_arg8 : W5 m ρ c (Proc.devRef .tc main_arg8) = a8 m c := (W5_of_ne m ρ c main_arg8 (by decide)).trans (W4_arg8 m ρ c)
theorem W5_arg9 : W5 m ρ c (Proc.devRef .tc main_arg9) = a9 m c := (W5_of_ne m ρ c main_arg9 (by decide)).trans (W4_arg9 m ρ c)

/-! ## After the third region: the second product -/

theorem W6_v62 (H : RegionFacts) :
    W6 m ρ c (Proc.devRef .tc main_v62)
      = val_main_v63 (F := Ideal) (a0 m c) (a1 m c) (a2 m c) (a3 m c) (a4 m c) (a5 m c) (a6 m c) := by
  refine (W6_arr m ρ c 2).trans ((H.mm2 (V5 m ρ) c).trans ?_)
  rw [show V5 m ρ c main_v61 = _ from W5_v61 m ρ c H, show V5 m ρ c main_arg6 = _ from W5_arg6 m ρ c]
  rfl
theorem W6_v46 (H : RegionFacts) :
    W6 m ρ c (Proc.devRef .tc main_v46) = val_main_v46 (F := Ideal) (a0 m c) (a1 m c) (a4 m c) (a5 m c) :=
  (W6_of_ne m ρ c main_v46 (by decide)).trans (W5_v46 m ρ c H)
theorem W6_arg1 : W6 m ρ c (Proc.devRef .tc main_arg1) = a1 m c := (W6_of_ne m ρ c main_arg1 (by decide)).trans (W5_arg1 m ρ c)
theorem W6_arg2 : W6 m ρ c (Proc.devRef .tc main_arg2) = a2 m c := (W6_of_ne m ρ c main_arg2 (by decide)).trans (W5_arg2 m ρ c)
theorem W6_arg3 : W6 m ρ c (Proc.devRef .tc main_arg3) = a3 m c := (W6_of_ne m ρ c main_arg3 (by decide)).trans (W5_arg3 m ρ c)
theorem W6_arg7 : W6 m ρ c (Proc.devRef .tc main_arg7) = a7 m c := (W6_of_ne m ρ c main_arg7 (by decide)).trans (W5_arg7 m ρ c)
theorem W6_arg8 : W6 m ρ c (Proc.devRef .tc main_arg8) = a8 m c := (W6_of_ne m ρ c main_arg8 (by decide)).trans (W5_arg8 m ρ c)
theorem W6_arg9 : W6 m ρ c (Proc.devRef .tc main_arg9) = a9 m c := (W6_of_ne m ρ c main_arg9 (by decide)).trans (W5_arg9 m ρ c)

/-! ## After the second convolution's host stretch -/

theorem W9_v110 (H : RegionFacts) :
    W9 m ρ c (Proc.devRef .tc main_v110)
      = val_main_v110 (F := Ideal) (a0 m c) (a1 m c) (a2 m c) (a3 m c) (a4 m c) (a5 m c) (a6 m c) (a7 m c) :=
  host3_v110 (W6 m ρ c) _ _ _ _ _ _ _ _ (W6_v62 m ρ c H) (W6_arg1 m ρ c) (W6_arg7 m ρ c)
theorem W9_v124 (H : RegionFacts) :
    W9 m ρ c (Proc.devRef .tc main_v124)
      = val_main_v124 (F := Ideal) (a0 m c) (a1 m c) (a2 m c) (a3 m c) (a4 m c) (a5 m c) :=
  host3_v124 (W6 m ρ c) _ _ _ _ _ _ (W6_v46 m ρ c H) (W6_arg2 m ρ c) (W6_arg3 m ρ c)
theorem W9_arg2 : W9 m ρ c (Proc.devRef .tc main_arg2) = a2 m c :=
  (pass3 (W6 m ρ c) main_arg2 (by decide) (by decide) (by decide)).trans (W6_arg2 m ρ c)
theorem W9_arg8 : W9 m ρ c (Proc.devRef .tc main_arg8) = a8 m c :=
  (pass3 (W6 m ρ c) main_arg8 (by decide) (by decide) (by decide)).trans (W6_arg8 m ρ c)
theorem W9_arg9 : W9 m ρ c (Proc.devRef .tc main_arg9) = a9 m c :=
  (pass3 (W6 m ρ c) main_arg9 (by decide) (by decide) (by decide)).trans (W6_arg9 m ρ c)

/-! ## After the fourth region: the node features, the second result -/

theorem W10_v125 (H : RegionFacts) :
    W10 m ρ c (Proc.devRef .tc main_v125)
      = val_main_v125 (F := Ideal) (a0 m c) (a1 m c) (a2 m c) (a3 m c) (a4 m c) (a5 m c) (a6 m c) (a7 m c) := by
  refine (W10_arr m ρ c 2).trans ((H.cc3 (V9 m ρ) c).trans ?_)
  rw [show V9 m ρ c main_v110 = _ from W9_v110 m ρ c H, show V9 m ρ c main_v124 = _ from W9_v124 m ρ c H]
  rfl
theorem W10_arg2 : W10 m ρ c (Proc.devRef .tc main_arg2) = a2 m c := (W10_of_ne m ρ c main_arg2 (by decide)).trans (W9_arg2 m ρ c)
theorem W10_arg8 : W10 m ρ c (Proc.devRef .tc main_arg8) = a8 m c := (W10_of_ne m ρ c main_arg8 (by decide)).trans (W9_arg8 m ρ c)
theorem W10_arg9 : W10 m ρ c (Proc.devRef .tc main_arg9) = a9 m c := (W10_of_ne m ρ c main_arg9 (by decide)).trans (W9_arg9 m ρ c)

/-! ## After the pooling stretch -/

theorem W11_v137 (H : RegionFacts) :
    W11 m ρ c (Proc.devRef .tc main_v137)
      = val_main_v137 (F := Ideal) (a0 m c) (a1 m c) (a2 m c) (a3 m c) (a4 m c) (a5 m c) (a6 m c) (a7 m c) :=
  host4_v137 (W10 m ρ c) _ _ _ _ _ _ _ _ (W10_v125 m ρ c H) (W10_arg2 m ρ c)
theorem W11_v125 (H : RegionFacts) :
    W11 m ρ c (Proc.devRef .tc main_v125)
      = val_main_v125 (F := Ideal) (a0 m c) (a1 m c) (a2 m c) (a3 m c) (a4 m c) (a5 m c) (a6 m c) (a7 m c) :=
  (pass4 (W10 m ρ c) main_v125 (by decide)).trans (W10_v125 m ρ c H)
theorem W11_arg8 : W11 m ρ c (Proc.devRef .tc main_arg8) = a8 m c := (pass4 (W10 m ρ c) main_arg8 (by decide)).trans (W10_arg8 m ρ c)
theorem W11_arg9 : W11 m ρ c (Proc.devRef .tc main_arg9) = a9 m c := (pass4 (W10 m ρ c) main_arg9 (by decide)).trans (W10_arg9 m ρ c)

/-! ## After the fifth region: the last product -/

theorem W12_v138 (H : RegionFacts) :
    W12 m ρ c (Proc.devRef .tc main_v138)
      = val_main_v138 (F := Ideal) (a0 m c) (a1 m c) (a2 m c) (a3 m c) (a4 m c) (a5 m c) (a6 m c) (a7 m c) (a8 m c) := by
  refine (W12_arr m ρ c 2).trans ((H.mm4 (V11 m ρ) c).trans ?_)
  rw [show V11 m ρ c main_v137 = _ from W11_v137 m ρ c H, show V11 m ρ c main_arg8 = _ from W11_arg8 m ρ c]
  rfl
theorem W12_v125 (H : RegionFacts) :
    W12 m ρ c (Proc.devRef .tc main_v125)
      = val_main_v125 (F := Ideal) (a0 m c) (a1 m c) (a2 m c) (a3 m c) (a4 m c) (a5 m c) (a6 m c) (a7 m c) :=
  (W12_of_ne m ρ c main_v125 (by decide)).trans (W11_v125 m ρ c H)
theorem W12_arg9 : W12 m ρ c (Proc.devRef .tc main_arg9) = a9 m c := (W12_of_ne m ρ c main_arg9 (by decide)).trans (W11_arg9 m ρ c)

/-! ## At the return -/

/-- The logits buffer at the return is the reference's last stage of the arguments. -/
theorem W13_v141 (H : RegionFacts) :
    W13 m ρ c (Proc.devRef .tc main_v141)
      = val_main_v141 (F := Ideal) (a0 m c) (a1 m c) (a2 m c) (a3 m c) (a4 m c) (a5 m c) (a6 m c) (a7 m c) (a8 m c) (a9 m c) :=
  host5_v141 (W12 m ρ c) _ _ _ _ _ _ _ _ _ _ (W12_v138 m ρ c H) (W12_arg9 m ρ c)
/-- The node-feature buffer at the return is the reference's feature stage of the arguments. -/
theorem W13_v125 (H : RegionFacts) :
    W13 m ρ c (Proc.devRef .tc main_v125)
      = val_main_v125 (F := Ideal) (a0 m c) (a1 m c) (a2 m c) (a3 m c) (a4 m c) (a5 m c) (a6 m c) (a7 m c) :=
  (pass5 (W12 m ρ c) main_v125 (by decide)).trans (W12_v125 m ρ c H)

end Cert.KernelIdeal.Bridge

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.Matmul0.lean ====
import proofs.«175130_j69063074119744_1_alg».proof.Proof.Gen.KernelIdeal.Frame
import proofs.«175130_j69063074119744_1_alg».proof.Proof.RefRead
import proofs.«175130_j69063074119744_1_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## A block of rows of a matrix product

The vector unit multiplies a block of rows `A` of a tall array `X` by the whole second operand, after rounding both
to bf16 (the identity on the extended reals), into a zero accumulator.  At `(p, e)` that is `∑ⱼ A[p, j] · B[j, e]`;
when row `p` of the block is row `r` of `X` it is the host product of `X` by the second operand at `(r, e)`. -/

/-- Row `p` of a block product is row `r` of the whole product when row `p` of the block is row `r` of the whole
    first operand and the second operands agree on column `e`. -/
private theorem block_product_apply {m k n R : ℕ}
    (D : DotDims ⟨2, ![m, k]⟩ ⟨2, ![k, n]⟩ ⟨2, ![m, n]⟩) (D' : DotDims ⟨2, ![R, k]⟩ ⟨2, ![k, n]⟩ ⟨2, ![R, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hr' : D'.contr.rank = 1) (hs' : D'.contr.size ⟨0, by omega⟩ = k)
    (hl0' : ∀ i q, (D'.lhsIdx i q 0).val = (i 0).val) (hl1' : ∀ i q, (D'.lhsIdx i q 1).val = (q ⟨0, by omega⟩).val)
    (hr0' : ∀ i q, (D'.rhsIdx i q 0).val = (q ⟨0, by omega⟩).val) (hr1' : ∀ i q, (D'.rhsIdx i q 1).val = (i 1).val)
    (hb : FTy.bits .bf16 < FTy.bits .f32)
    (A : FVec Ideal ⟨2, ![m, k]⟩ .f32) (B : FVec Ideal ⟨2, ![k, n]⟩ .f32)
    (X : FVec Ideal ⟨2, ![R, k]⟩ .f32) (W : FVec Ideal ⟨2, ![k, n]⟩ .f32)
    (p : Fin m) (e : Fin n) (r : Fin R)
    (hA : ∀ j : Fin k, A (ix2 p j) = X (ix2 r j)) (hB : ∀ j : Fin k, B (ix2 j e) = W (ix2 j e)) :
    FloatOps.matmul D none (truncf .bf16 A hb) (truncf .bf16 B hb) (constant ⟨2, ![m, n]⟩ .f32 0x00000000#32) (ix2 p e)
      = FloatOps.dotGeneral D' none .single X W (ix2 r e) := by
  refine (Cert.LibDot.matmul_zero_apply D hr hs hl0 hl1 hr0 hr1 none (truncf .bf16 A hb) (truncf .bf16 B hb) p e).trans ?_
  refine Eq.trans ?_ (Cert.LibDot.dotGeneral_apply D' hr' hs' hl0' hl1' hr0' hr1' none .single X W r e).symm
  refine Finset.sum_congr rfl fun j _ => ?_
  rw [truncf_apply, truncf_apply, hA j, hB j]

private theorem zero_offsets : (![0, 0] : Fin 2 → Nat) = fun _ => 0 := funext fun a => by fin_cases a <;> rfl

/-! ## Region 0: `[100000, 128] · [128, 128]` in fifty blocks of 2000 rows -/

theorem blk0_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blk0_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem blk0_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem blk0_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product at `(p, e)`, for a first block whose row `p` is row `r` of the whole first operand. -/
theorem k0_pay1_at (x0 : Vec Ideal S2000x128 .f32) (x1 : Vec Ideal S128x128 .f32)
    (X : FVec Ideal S100000x128 .f32) (W : FVec Ideal S128x128 .f32)
    (p : Fin 2000) (e : Fin 128) (r : Fin 100000)
    (hx0 : ∀ j : Fin 128, x0 (ix2 p j) = X (ix2 r j)) (hx1 : ∀ j : Fin 128, x1 (ix2 j e) = W (ix2 j e)) :
    k0_pay1 x0 x1 (ix2 p e) = Cert.ReferenceIdeal.ReadP.val_main_v0 (F := Ideal) X W (ix2 r e) :=
  block_product_apply dot_S2000x128_S128x128_S2000x128_1_0_0_1_n_n
    Cert.ReferenceIdeal.dot_S100000x128_S128x128_S100000x128_1_0_0_1_n_n
    rfl rfl blk0_lhs_0 blk0_lhs_1 blk0_rhs_0 blk0_rhs_1
    rfl rfl Cert.ReferenceIdeal.ReadP.lhs_main_v0_0 Cert.ReferenceIdeal.ReadP.lhs_main_v0_1 Cert.ReferenceIdeal.ReadP.rhs_main_v0_0 Cert.ReferenceIdeal.ReadP.rhs_main_v0_1
    bitsLt_bf16_f32 x0 x1 X W p e r hx0 hx1

/-- The printed index maps over the grid: point `t` takes block `t` of the rows of the first operand and of the
    result, and the one block of the second operand. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry `y` of point `t`'s block of the first operand is entry `(2000 t + y₀, y₁)` of the array. -/
theorem iblk0_0_apply (c : Dev nD) (t : Fin cfg0.N) (y : S2000x128.Idx) (i : S100000x128.Idx)
    (h0 : (i 0).val = t.val * 2000 + (y 0).val) (h1 : (i 1).val = (y 1).val) :
    iblk0 (F := Ideal) V c 0 t y = V c main_arg0 i := by
  unfold iblk0
  show V c main_arg0 (((cfg0.win 0).blk t).view.emb y) = V c main_arg0 i
  obtain ⟨e0, e1, -⟩ := index_facts0 t
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- Point `t`'s block of the second operand is the whole array. -/
theorem iblk0_1_apply (c : Dev nD) (t : Fin cfg0.N) (y : S128x128.Idx) :
    iblk0 (F := Ideal) V c 1 t y = V c main_arg4 y := by
  unfold iblk0
  show V c main_arg4 (((cfg0.win 1).blk t).view.emb y) = V c main_arg4 y
  obtain ⟨-, -, e0, e1, -⟩ := index_facts0 t
  refine congrArg (V c main_arg4) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point `t` writes back is block `t` of the host product of the two whole arrays. -/
theorem flushed0_eq (c : Dev nD) (t : Fin cfg0.N) :
    (dat0 (F := Ideal) V c).flushed 2 t
      = ((cfg0.win 2).blk t).view.read (Elt Ideal) (Cert.ReferenceIdeal.ReadP.val_main_v0 (F := Ideal) (V c main_arg0) (V c main_arg4)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  refine funext fun (y : S2000x128.Idx) => ?_
  obtain ⟨p, e, rfl⟩ : ∃ (p : Fin 2000) (e : Fin 128), y = ix2 p e := ⟨y 0, y 1, eq_ix2 y⟩
  have ht : t.val < 50 := by have := t.isLt; have hN : grid0.N = 50 := N_0; exact hN ▸ this
  obtain ⟨-, -, -, -, e0, e1⟩ := index_facts0 t
  have hemb : ((cfg0.win 2).blk t).view.emb (ix2 p e) = ix2 (⟨t.val * 2000 + p.val, by have := p.isLt; omega⟩ : Fin 100000) e :=
    funext fun a => Fin.ext (by
      match a with
      | ⟨0, _⟩ => show win0_2.index t (0 : Fin 2) * 2000 + 1 * p.val = t.val * 2000 + p.val; omega
      | ⟨1, _⟩ => show win0_2.index t (1 : Fin 2) * 128 + 1 * e.val = e.val; omega)
  show k0_pay1 (iblk0 (F := Ideal) V c 0 t) (iblk0 (F := Ideal) V c 1 t) (ix2 p e)
      = Cert.ReferenceIdeal.ReadP.val_main_v0 (F := Ideal) (V c main_arg0) (V c main_arg4) (((cfg0.win 2).blk t).view.emb (ix2 p e))
  refine (k0_pay1_at _ _ (V c main_arg0) (V c main_arg4) p e ⟨t.val * 2000 + p.val, by have := p.isLt; omega⟩
    (fun j => iblk0_0_apply V c t (ix2 p j) (ix2 _ j) rfl rfl) (fun j => iblk0_1_apply V c t (ix2 j e))).trans ?_
  exact congrArg (Cert.ReferenceIdeal.ReadP.val_main_v0 (F := Ideal) (V c main_arg0) (V c main_arg4)) hemb.symm

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row `r` of the result is in the block of point `r / 2000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := N_0
  have htN : (i 0).val / 2000 < grid0.N := by omega
  obtain ⟨-, -, -, -, e0, e1⟩ := index_facts0 ⟨(i 0).val / 2000, htN⟩
  have e0' : win0_2.index ⟨(i 0).val / 2000, htN⟩ (0 : Fin 2) = (i 0).val / 2000 := e0
  refine ⟨⟨(i 0).val / 2000, htN⟩, flush0_2 _, ?_⟩
  rw [mem_blk0]
  intro a
  match a with
  | ⟨0, _⟩ => show win0_2.index ⟨(i 0).val / 2000, htN⟩ (0 : Fin 2) * 2000 ≤ (i 0).val ∧ (i 0).val < win0_2.index ⟨(i 0).val / 2000, htN⟩ (0 : Fin 2) * 2000 + 2000; omega
  | ⟨1, _⟩ => show win0_2.index ⟨(i 0).val / 2000, htN⟩ (1 : Fin 2) * 128 ≤ (i 1).val ∧ (i 1).val < win0_2.index ⟨(i 0).val / 2000, htN⟩ (1 : Fin 2) * 128 + 128; omega

/-- The first product's array after the region: the host product of the two operand arrays. -/
theorem matmul0 (c : Dev nD) :
    (dat0 (F := Ideal) V c).arrAt 2 cfg0.N
      = Cert.ReferenceIdeal.ReadP.val_main_v0 (F := Ideal) (V c main_arg0) (V c main_arg4) :=
  (dat0 (F := Ideal) V c).arrAt_eq_of_cover 2 _ (fun t _ => flushed0_eq V c t) cover0

end Cert.KernelIdeal.RegionValue

end
-- ==== Proof.Matmul2.lean ====
import proofs.«175130_j69063074119744_1_alg».proof.Proof.Gen.KernelIdeal.Frame
import proofs.«175130_j69063074119744_1_alg».proof.Proof.Gen.ReferenceIdeal
import proofs.«175130_j69063074119744_1_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## A block of rows of a matrix product

The vector unit multiplies a block of rows `A` of a tall array `X` by the whole second operand, after rounding both
to bf16 (the identity on the extended reals), into a zero accumulator.  At `(p, e)` that is `∑ⱼ A[p, j] · B[j, e]`;
when row `p` of the block is row `r` of `X` it is the host product of `X` by the second operand at `(r, e)`. -/

/-- Row `p` of a block product is row `r` of the whole product when row `p` of the block is row `r` of the whole
    first operand and the second operands agree on column `e`. -/
private theorem block_product_apply {m k n R : ℕ}
    (D : DotDims ⟨2, ![m, k]⟩ ⟨2, ![k, n]⟩ ⟨2, ![m, n]⟩) (D' : DotDims ⟨2, ![R, k]⟩ ⟨2, ![k, n]⟩ ⟨2, ![R, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hr' : D'.contr.rank = 1) (hs' : D'.contr.size ⟨0, by omega⟩ = k)
    (hl0' : ∀ i q, (D'.lhsIdx i q 0).val = (i 0).val) (hl1' : ∀ i q, (D'.lhsIdx i q 1).val = (q ⟨0, by omega⟩).val)
    (hr0' : ∀ i q, (D'.rhsIdx i q 0).val = (q ⟨0, by omega⟩).val) (hr1' : ∀ i q, (D'.rhsIdx i q 1).val = (i 1).val)
    (hb : FTy.bits .bf16 < FTy.bits .f32)
    (A : FVec Ideal ⟨2, ![m, k]⟩ .f32) (B : FVec Ideal ⟨2, ![k, n]⟩ .f32)
    (X : FVec Ideal ⟨2, ![R, k]⟩ .f32) (W : FVec Ideal ⟨2, ![k, n]⟩ .f32)
    (p : Fin m) (e : Fin n) (r : Fin R)
    (hA : ∀ j : Fin k, A (ix2 p j) = X (ix2 r j)) (hB : ∀ j : Fin k, B (ix2 j e) = W (ix2 j e)) :
    FloatOps.matmul D none (truncf .bf16 A hb) (truncf .bf16 B hb) (constant ⟨2, ![m, n]⟩ .f32 0x00000000#32) (ix2 p e)
      = FloatOps.dotGeneral D' none .single X W (ix2 r e) := by
  refine (Cert.LibDot.matmul_zero_apply D hr hs hl0 hl1 hr0 hr1 none (truncf .bf16 A hb) (truncf .bf16 B hb) p e).trans ?_
  refine Eq.trans ?_ (Cert.LibDot.dotGeneral_apply D' hr' hs' hl0' hl1' hr0' hr1' none .single X W r e).symm
  refine Finset.sum_congr rfl fun j _ => ?_
  rw [truncf_apply, truncf_apply, hA j, hB j]

private theorem zero_offsets : (![0, 0] : Fin 2 → Nat) = fun _ => 0 := funext fun a => by fin_cases a <;> rfl

/-! ## Region 2: `[100000, 256] · [256, 128]` in fifty blocks of 2000 rows -/

theorem blk2_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem blk2_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem blk2_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem blk2_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! The same four facts for the host product's dimension numbers. -/

theorem host2_lhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem host2_lhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem host2_rhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem host2_rhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The body's product at `(p, e)`, for a first block whose row `p` is row `r` of the whole first operand. -/
theorem k2_pay1_at (x0 : Vec Ideal S2000x256 .f32) (x1 : Vec Ideal S256x128 .f32)
    (X : FVec Ideal S100000x256 .f32) (W : FVec Ideal S256x128 .f32)
    (p : Fin 2000) (e : Fin 128) (r : Fin 100000)
    (hx0 : ∀ j : Fin 256, x0 (ix2 p j) = X (ix2 r j)) (hx1 : ∀ j : Fin 256, x1 (ix2 j e) = W (ix2 j e)) :
    k2_pay1 x0 x1 (ix2 p e) = Host.dotGeneral (F := Ideal) (φ₁ := .f32) (φ₂ := .f32) Cert.ReferenceIdeal.dot_S100000x256_S256x128_S100000x128_1_0_0_1_n_n none X W (ix2 r e) :=
  block_product_apply dot_S2000x256_S256x128_S2000x128_1_0_0_1_n_n
    Cert.ReferenceIdeal.dot_S100000x256_S256x128_S100000x128_1_0_0_1_n_n
    rfl rfl blk2_lhs_0 blk2_lhs_1 blk2_rhs_0 blk2_rhs_1
    rfl rfl host2_lhs_0 host2_lhs_1 host2_rhs_0 host2_rhs_1
    bitsLt_bf16_f32 (shapeCast S2000x256 x0 shapeCasts_S2000x256_S2000x256) x1 X W p e r (fun j => (congrFun (shapeCast_self x0 shapeCasts_S2000x256_S2000x256) (ix2 p j)).trans (hx0 j)) hx1

/-- The printed index maps over the grid: point `t` takes block `t` of the rows of the first operand and of the
    result, and the one block of the second operand. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Entry `y` of point `t`'s block of the first operand is entry `(2000 t + y₀, y₁)` of the array. -/
theorem iblk2_0_apply (c : Dev nD) (t : Fin cfg2.N) (y : S2000x256.Idx) (i : S100000x256.Idx)
    (h0 : (i 0).val = t.val * 2000 + (y 0).val) (h1 : (i 1).val = (y 1).val) :
    iblk2 (F := Ideal) V c 0 t y = V c main_v61 i := by
  unfold iblk2
  show V c main_v61 (((cfg2.win 0).blk t).view.emb y) = V c main_v61 i
  obtain ⟨e0, e1, -⟩ := index_facts2 t
  refine congrArg (V c main_v61) (funext fun a => Fin.ext ?_)
  match a with
  | ⟨0, _⟩ => show win2_0.index t (0 : Fin 2) * 2000 + 1 * (y 0).val = (i 0).val; omega
  | ⟨1, _⟩ => show win2_0.index t (1 : Fin 2) * 256 + 1 * (y 1).val = (i 1).val; omega

/-- Point `t`'s block of the second operand is the whole array. -/
theorem iblk2_1_apply (c : Dev nD) (t : Fin cfg2.N) (y : S256x128.Idx) :
    iblk2 (F := Ideal) V c 1 t y = V c main_arg6 y := by
  unfold iblk2
  show V c main_arg6 (((cfg2.win 1).blk t).view.emb y) = V c main_arg6 y
  obtain ⟨-, -, e0, e1, -⟩ := index_facts2 t
  refine congrArg (V c main_arg6) (funext fun a => Fin.ext ?_)
  match a with
  | ⟨0, _⟩ => show win2_1.index t (0 : Fin 2) * 256 + 1 * (y 0).val = (y 0).val; omega
  | ⟨1, _⟩ => show win2_1.index t (1 : Fin 2) * 128 + 1 * (y 1).val = (y 1).val; omega

/-- What point `t` writes back is block `t` of the host product of the two whole arrays. -/
theorem flushed2_eq (c : Dev nD) (t : Fin cfg2.N) :
    (dat2 (F := Ideal) V c).flushed 2 t
      = ((cfg2.win 2).blk t).view.read (Elt Ideal) (Host.dotGeneral (F := Ideal) (φ₁ := .f32) (φ₂ := .f32) Cert.ReferenceIdeal.dot_S100000x256_S256x128_S100000x128_1_0_0_1_n_n none (V c main_v61) (V c main_arg6)) := by
  show (cfg2.win 2).cut (grid2.coords t) ((dat2 (F := Ideal) V c).after 2 t) = _
  rw [after2_2]
  unfold out2_2
  rw [View.canon_unit_zero zero_offsets]
  simp only [View.ld_unit_zero (S := S2000x256) zero_offsets, View.ld_unit_zero (S := S256x128) zero_offsets]
  refine funext fun (y : S2000x128.Idx) => ?_
  obtain ⟨p, e, rfl⟩ : ∃ (p : Fin 2000) (e : Fin 128), y = ix2 p e := ⟨y 0, y 1, eq_ix2 y⟩
  have ht : t.val < 50 := by have := t.isLt; have hN : grid2.N = 50 := N_2; exact hN ▸ this
  obtain ⟨-, -, -, -, e0, e1⟩ := index_facts2 t
  have hemb : ((cfg2.win 2).blk t).view.emb (ix2 p e) = ix2 (⟨t.val * 2000 + p.val, by have := p.isLt; omega⟩ : Fin 100000) e :=
    funext fun a => Fin.ext (by
      match a with
      | ⟨0, _⟩ => show win2_2.index t (0 : Fin 2) * 2000 + 1 * p.val = t.val * 2000 + p.val; omega
      | ⟨1, _⟩ => show win2_2.index t (1 : Fin 2) * 128 + 1 * e.val = e.val; omega)
  show k2_pay1 (iblk2 (F := Ideal) V c 0 t) (iblk2 (F := Ideal) V c 1 t) (ix2 p e)
      = Host.dotGeneral (F := Ideal) (φ₁ := .f32) (φ₂ := .f32) Cert.ReferenceIdeal.dot_S100000x256_S256x128_S100000x128_1_0_0_1_n_n none (V c main_v61) (V c main_arg6) (((cfg2.win 2).blk t).view.emb (ix2 p e))
  refine (k2_pay1_at _ _ (V c main_v61) (V c main_arg6) p e ⟨t.val * 2000 + p.val, by have := p.isLt; omega⟩
    (fun j => iblk2_0_apply V c t (ix2 p j) (ix2 _ j) rfl rfl) (fun j => iblk2_1_apply V c t (ix2 j e))).trans ?_
  exact congrArg (Host.dotGeneral (F := Ideal) (φ₁ := .f32) (φ₂ := .f32) Cert.ReferenceIdeal.dot_S100000x256_S256x128_S100000x128_1_0_0_1_n_n none (V c main_v61) (V c main_arg6)) hemb.symm

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v62).slice (win2_2.rect t)).set ↔ _
  rw [View.set_slice_whole, Rect.mem_set_unit]
  exact Iff.rfl

/-- Row `r` of the result is in the block of point `r / 2000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 50 := N_2
  have htN : (i 0).val / 2000 < grid2.N := by omega
  obtain ⟨-, -, -, -, e0, e1⟩ := index_facts2 ⟨(i 0).val / 2000, htN⟩
  have e0' : win2_2.index ⟨(i 0).val / 2000, htN⟩ (0 : Fin 2) = (i 0).val / 2000 := e0
  refine ⟨⟨(i 0).val / 2000, htN⟩, flush2_2 _, ?_⟩
  rw [mem_blk2]
  intro a
  match a with
  | ⟨0, _⟩ => show win2_2.index ⟨(i 0).val / 2000, htN⟩ (0 : Fin 2) * 2000 ≤ (i 0).val ∧ (i 0).val < win2_2.index ⟨(i 0).val / 2000, htN⟩ (0 : Fin 2) * 2000 + 2000; omega
  | ⟨1, _⟩ => show win2_2.index ⟨(i 0).val / 2000, htN⟩ (1 : Fin 2) * 128 ≤ (i 1).val ∧ (i 1).val < win2_2.index ⟨(i 0).val / 2000, htN⟩ (1 : Fin 2) * 128 + 128; omega

/-- The second product's array after the region: the host product of the two operand arrays. -/
theorem matmul2 (c : Dev nD) :
    (dat2 (F := Ideal) V c).arrAt 2 cfg2.N
      = Host.dotGeneral (F := Ideal) (φ₁ := .f32) (φ₂ := .f32) Cert.ReferenceIdeal.dot_S100000x256_S256x128_S100000x128_1_0_0_1_n_n none (V c main_v61) (V c main_arg6) :=
  (dat2 (F := Ideal) V c).arrAt_eq_of_cover 2 _ (fun t _ => flushed2_eq V c t) cover2

end Cert.KernelIdeal.RegionValue

end
-- ==== Proof.Matmul4.lean ====
import proofs.«175130_j69063074119744_1_alg».proof.Proof.Gen.KernelIdeal.Frame
import proofs.«175130_j69063074119744_1_alg».proof.Proof.Gen.ReferenceIdeal
import proofs.«175130_j69063074119744_1_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## A block of rows of a matrix product

The vector unit multiplies a block of rows `A` of a tall array `X` by the whole second operand, after rounding both
to bf16 (the identity on the extended reals), into a zero accumulator.  At `(p, e)` that is `∑ⱼ A[p, j] · B[j, e]`;
when row `p` of the block is row `r` of `X` it is the host product of `X` by the second operand at `(r, e)`. -/

/-- Row `p` of a block product is row `r` of the whole product when row `p` of the block is row `r` of the whole
    first operand and the second operands agree on column `e`. -/
private theorem block_product_apply {m k n R : ℕ}
    (D : DotDims ⟨2, ![m, k]⟩ ⟨2, ![k, n]⟩ ⟨2, ![m, n]⟩) (D' : DotDims ⟨2, ![R, k]⟩ ⟨2, ![k, n]⟩ ⟨2, ![R, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hr' : D'.contr.rank = 1) (hs' : D'.contr.size ⟨0, by omega⟩ = k)
    (hl0' : ∀ i q, (D'.lhsIdx i q 0).val = (i 0).val) (hl1' : ∀ i q, (D'.lhsIdx i q 1).val = (q ⟨0, by omega⟩).val)
    (hr0' : ∀ i q, (D'.rhsIdx i q 0).val = (q ⟨0, by omega⟩).val) (hr1' : ∀ i q, (D'.rhsIdx i q 1).val = (i 1).val)
    (hb : FTy.bits .bf16 < FTy.bits .f32)
    (A : FVec Ideal ⟨2, ![m, k]⟩ .f32) (B : FVec Ideal ⟨2, ![k, n]⟩ .f32)
    (X : FVec Ideal ⟨2, ![R, k]⟩ .f32) (W : FVec Ideal ⟨2, ![k, n]⟩ .f32)
    (p : Fin m) (e : Fin n) (r : Fin R)
    (hA : ∀ j : Fin k, A (ix2 p j) = X (ix2 r j)) (hB : ∀ j : Fin k, B (ix2 j e) = W (ix2 j e)) :
    FloatOps.matmul D none (truncf .bf16 A hb) (truncf .bf16 B hb) (constant ⟨2, ![m, n]⟩ .f32 0x00000000#32) (ix2 p e)
      = FloatOps.dotGeneral D' none .single X W (ix2 r e) := by
  refine (Cert.LibDot.matmul_zero_apply D hr hs hl0 hl1 hr0 hr1 none (truncf .bf16 A hb) (truncf .bf16 B hb) p e).trans ?_
  refine Eq.trans ?_ (Cert.LibDot.dotGeneral_apply D' hr' hs' hl0' hl1' hr0' hr1' none .single X W r e).symm
  refine Finset.sum_congr rfl fun j _ => ?_
  rw [truncf_apply, truncf_apply, hA j, hB j]

private theorem zero_offsets : (![0, 0] : Fin 2 → Nat) = fun _ => 0 := funext fun a => by fin_cases a <;> rfl

/-! ## Region 4: `[512, 256] · [256, 4]` at one grid point whose blocks are the whole arrays -/

theorem blk4_lhs_0 (i : S512x4.Idx) (q : dot_S512x256_S256x4_S512x4_1_0_0_1_n_n.contr.Idx) :
    (dot_S512x256_S256x4_S512x4_1_0_0_1_n_n.lhsIdx i q 0).val = (i 0).val := by
  unfold DotDims.lhsIdx
  rw [dif_neg (show ¬(0 : Fin S512x256.rank) ∈ dot_S512x256_S256x4_S512x4_1_0_0_1_n_n.lhsBatch by decide), dif_pos (show (0 : Fin S512x256.rank) ∈ dot_S512x256_S256x4_S512x4_1_0_0_1_n_n.lhsNonContracting by decide)]
  rfl
theorem blk4_lhs_1 (i : S512x4.Idx) (q : dot_S512x256_S256x4_S512x4_1_0_0_1_n_n.contr.Idx) :
    (dot_S512x256_S256x4_S512x4_1_0_0_1_n_n.lhsIdx i q 1).val = (q ⟨0, by decide⟩).val :=
  dot_S512x256_S256x4_S512x4_1_0_0_1_n_n.lhsIdx_val_of_single rfl i q
theorem blk4_rhs_0 (i : S512x4.Idx) (q : dot_S512x256_S256x4_S512x4_1_0_0_1_n_n.contr.Idx) :
    (dot_S512x256_S256x4_S512x4_1_0_0_1_n_n.rhsIdx i q 0).val = (q ⟨0, by decide⟩).val :=
  dot_S512x256_S256x4_S512x4_1_0_0_1_n_n.rhsIdx_val_of_single rfl i q
theorem blk4_rhs_1 (i : S512x4.Idx) (q : dot_S512x256_S256x4_S512x4_1_0_0_1_n_n.contr.Idx) :
    (dot_S512x256_S256x4_S512x4_1_0_0_1_n_n.rhsIdx i q 1).val = (i 1).val := by
  unfold DotDims.rhsIdx
  rw [dif_neg (show ¬(1 : Fin S256x4.rank) ∈ dot_S512x256_S256x4_S512x4_1_0_0_1_n_n.rhsBatch by decide), dif_pos (show (1 : Fin S256x4.rank) ∈ dot_S512x256_S256x4_S512x4_1_0_0_1_n_n.rhsNonContracting by decide)]
  rfl

/-! The same four facts for the host product's dimension numbers. -/

theorem host4_lhs_0 (i : Cert.ReferenceIdeal.S512x4.Idx) (q : Cert.ReferenceIdeal.dot_S512x256_S256x4_S512x4_1_0_0_1_n_n.contr.Idx) :
    (Cert.ReferenceIdeal.dot_S512x256_S256x4_S512x4_1_0_0_1_n_n.lhsIdx i q 0).val = (i 0).val := by
  unfold DotDims.lhsIdx
  rw [dif_neg (show ¬(0 : Fin Cert.ReferenceIdeal.S512x256.rank) ∈ Cert.ReferenceIdeal.dot_S512x256_S256x4_S512x4_1_0_0_1_n_n.lhsBatch by decide), dif_pos (show (0 : Fin Cert.ReferenceIdeal.S512x256.rank) ∈ Cert.ReferenceIdeal.dot_S512x256_S256x4_S512x4_1_0_0_1_n_n.lhsNonContracting by decide)]
  rfl
theorem host4_lhs_1 (i : Cert.ReferenceIdeal.S512x4.Idx) (q : Cert.ReferenceIdeal.dot_S512x256_S256x4_S512x4_1_0_0_1_n_n.contr.Idx) :
    (Cert.ReferenceIdeal.dot_S512x256_S256x4_S512x4_1_0_0_1_n_n.lhsIdx i q 1).val = (q ⟨0, by decide⟩).val :=
  Cert.ReferenceIdeal.dot_S512x256_S256x4_S512x4_1_0_0_1_n_n.lhsIdx_val_of_single rfl i q
theorem host4_rhs_0 (i : Cert.ReferenceIdeal.S512x4.Idx) (q : Cert.ReferenceIdeal.dot_S512x256_S256x4_S512x4_1_0_0_1_n_n.contr.Idx) :
    (Cert.ReferenceIdeal.dot_S512x256_S256x4_S512x4_1_0_0_1_n_n.rhsIdx i q 0).val = (q ⟨0, by decide⟩).val :=
  Cert.ReferenceIdeal.dot_S512x256_S256x4_S512x4_1_0_0_1_n_n.rhsIdx_val_of_single rfl i q
theorem host4_rhs_1 (i : Cert.ReferenceIdeal.S512x4.Idx) (q : Cert.ReferenceIdeal.dot_S512x256_S256x4_S512x4_1_0_0_1_n_n.contr.Idx) :
    (Cert.ReferenceIdeal.dot_S512x256_S256x4_S512x4_1_0_0_1_n_n.rhsIdx i q 1).val = (i 1).val := by
  unfold DotDims.rhsIdx
  rw [dif_neg (show ¬(1 : Fin Cert.ReferenceIdeal.S256x4.rank) ∈ Cert.ReferenceIdeal.dot_S512x256_S256x4_S512x4_1_0_0_1_n_n.rhsBatch by decide), dif_pos (show (1 : Fin Cert.ReferenceIdeal.S256x4.rank) ∈ Cert.ReferenceIdeal.dot_S512x256_S256x4_S512x4_1_0_0_1_n_n.rhsNonContracting by decide)]
  rfl

/-- The body's product at `(p, e)`: the host product of the same operands there. -/
theorem k4_pay1_at (x0 : Vec Ideal S512x256 .f32) (x1 : Vec Ideal S256x4 .f32)
    (X : FVec Ideal S512x256 .f32) (W : FVec Ideal S256x4 .f32)
    (p : Fin 512) (e : Fin 4) (r : Fin 512)
    (hx0 : ∀ j : Fin 256, x0 (ix2 p j) = X (ix2 r j)) (hx1 : ∀ j : Fin 256, x1 (ix2 j e) = W (ix2 j e)) :
    k4_pay1 x0 x1 (ix2 p e) = Host.dotGeneral (F := Ideal) (φ₁ := .f32) (φ₂ := .f32) Cert.ReferenceIdeal.dot_S512x256_S256x4_S512x4_1_0_0_1_n_n none X W (ix2 r e) :=
  block_product_apply dot_S512x256_S256x4_S512x4_1_0_0_1_n_n
    Cert.ReferenceIdeal.dot_S512x256_S256x4_S512x4_1_0_0_1_n_n
    rfl rfl blk4_lhs_0 blk4_lhs_1 blk4_rhs_0 blk4_rhs_1
    rfl rfl host4_lhs_0 host4_lhs_1 host4_rhs_0 host4_rhs_1
    bitsLt_bf16_f32 (shapeCast S512x256 x0 shapeCasts_S512x256_S512x256) x1 X W p e r
    (fun j => (congrFun (shapeCast_self x0 shapeCasts_S512x256_S512x256) (ix2 p j)).trans (hx0 j)) hx1

/-- The printed index maps at the one grid point: every window takes its block 0 on both axes. -/
theorem index_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

variable (V : (c : Dev nD) → (b : Ref sig .tc) → Buf (Elt Ideal) ((c : Thread nD τ).loc b))

/-- The point's block of the first operand is the whole array. -/
theorem iblk4_0_apply (c : Dev nD) (t : Fin cfg4.N) (y : S512x256.Idx) :
    iblk4 (F := Ideal) V c 0 t y = V c main_v137 y := by
  unfold iblk4
  show V c main_v137 (((cfg4.win 0).blk t).view.emb y) = V c main_v137 y
  obtain ⟨e0, e1, -⟩ := index_facts4 t
  refine congrArg (V c main_v137) (funext fun a => Fin.ext ?_)
  match a with
  | ⟨0, _⟩ => show win4_0.index t (0 : Fin 2) * 512 + 1 * (y 0).val = (y 0).val; omega
  | ⟨1, _⟩ => show win4_0.index t (1 : Fin 2) * 256 + 1 * (y 1).val = (y 1).val; omega

/-- The point's block of the second operand is the whole array. -/
theorem iblk4_1_apply (c : Dev nD) (t : Fin cfg4.N) (y : S256x4.Idx) :
    iblk4 (F := Ideal) V c 1 t y = V c main_arg8 y := by
  unfold iblk4
  show V c main_arg8 (((cfg4.win 1).blk t).view.emb y) = V c main_arg8 y
  obtain ⟨-, -, e0, e1, -⟩ := index_facts4 t
  refine congrArg (V c main_arg8) (funext fun a => Fin.ext ?_)
  match a with
  | ⟨0, _⟩ => show win4_1.index t (0 : Fin 2) * 256 + 1 * (y 0).val = (y 0).val; omega
  | ⟨1, _⟩ => show win4_1.index t (1 : Fin 2) * 4 + 1 * (y 1).val = (y 1).val; omega

/-- What the point writes back is the (one, whole) block of the host product of the two arrays. -/
theorem flushed4_eq (c : Dev nD) (t : Fin cfg4.N) :
    (dat4 (F := Ideal) V c).flushed 2 t
      = ((cfg4.win 2).blk t).view.read (Elt Ideal) (Host.dotGeneral (F := Ideal) (φ₁ := .f32) (φ₂ := .f32) Cert.ReferenceIdeal.dot_S512x256_S256x4_S512x4_1_0_0_1_n_n none (V c main_v137) (V c main_arg8)) := by
  show (cfg4.win 2).cut (grid4.coords t) ((dat4 (F := Ideal) V c).after 2 t) = _
  rw [after4_2]
  unfold out4_2
  rw [View.canon_unit_zero zero_offsets]
  simp only [View.ld_unit_zero (S := S512x256) zero_offsets, View.ld_unit_zero (S := S256x4) zero_offsets]
  refine funext fun (y : S512x4.Idx) => ?_
  obtain ⟨p, e, rfl⟩ : ∃ (p : Fin 512) (e : Fin 4), y = ix2 p e := ⟨y 0, y 1, eq_ix2 y⟩
  obtain ⟨-, -, -, -, e0, e1⟩ := index_facts4 t
  have hemb : ((cfg4.win 2).blk t).view.emb (ix2 p e) = ix2 p e :=
    funext fun a => Fin.ext (by
      match a with
      | ⟨0, _⟩ => show win4_2.index t (0 : Fin 2) * 512 + 1 * p.val = p.val; omega
      | ⟨1, _⟩ => show win4_2.index t (1 : Fin 2) * 4 + 1 * e.val = e.val; omega)
  show k4_pay1 (iblk4 (F := Ideal) V c 0 t) (iblk4 (F := Ideal) V c 1 t) (ix2 p e)
      = Host.dotGeneral (F := Ideal) (φ₁ := .f32) (φ₂ := .f32) Cert.ReferenceIdeal.dot_S512x256_S256x4_S512x4_1_0_0_1_n_n none (V c main_v137) (V c main_arg8) (((cfg4.win 2).blk t).view.emb (ix2 p e))
  refine (k4_pay1_at _ _ (V c main_v137) (V c main_arg8) p e p
    (fun j => iblk4_0_apply V c t (ix2 p j)) (fun j => iblk4_1_apply V c t (ix2 j e))).trans ?_
  exact congrArg (Host.dotGeneral (F := Ideal) (φ₁ := .f32) (φ₂ := .f32) Cert.ReferenceIdeal.dot_S512x256_S256x4_S512x4_1_0_0_1_n_n none (V c main_v137) (V c main_arg8)) hemb.symm

/-- An index of the result array is in the point's block iff each coordinate is in the block's range on its axis. -/
theorem mem_blk4 (t : Fin cfg4.N) (i : S512x4.Idx) :
    i ∈ ((cfg4.win 2).blk t).view.set ↔ ∀ a : Fin 2, win4_2.index t a * S512x4.size a ≤ (i a).val ∧ (i a).val < win4_2.index t a * S512x4.size a + S512x4.size a := by
  show i ∈ ((View.whole main_v138).slice (win4_2.rect t)).set ↔ _
  rw [View.set_slice_whole, Rect.mem_set_unit]
  exact Iff.rfl

/-- Every index of the result is in the one point's block. -/
theorem cover4 (i : S512x4.Idx) :
    ∃ t : Fin cfg4.N, (cfg4.win 2).flush t = true ∧ i ∈ ((cfg4.win 2).blk t).view.set := by
  have hi0 : (i 0).val < 512 := (i 0).isLt
  have hi1 : (i 1).val < 4 := (i 1).isLt
  obtain ⟨-, -, -, -, e0, e1⟩ := index_facts4 t4_0
  refine ⟨t4_0, flush4_2 _, ?_⟩
  rw [mem_blk4]
  intro a
  match a with
  | ⟨0, _⟩ => show win4_2.index t4_0 (0 : Fin 2) * 512 ≤ (i 0).val ∧ (i 0).val < win4_2.index t4_0 (0 : Fin 2) * 512 + 512; omega
  | ⟨1, _⟩ => show win4_2.index t4_0 (1 : Fin 2) * 4 ≤ (i 1).val ∧ (i 1).val < win4_2.index t4_0 (1 : Fin 2) * 4 + 4; omega

/-- The last product's array after the region: the host product of the two operand arrays. -/
theorem matmul4 (c : Dev nD) :
    (dat4 (F := Ideal) V c).arrAt 2 cfg4.N
      = Host.dotGeneral (F := Ideal) (φ₁ := .f32) (φ₂ := .f32) Cert.ReferenceIdeal.dot_S512x256_S256x4_S512x4_1_0_0_1_n_n none (V c main_v137) (V c main_arg8) :=
  (dat4 (F := Ideal) V c).arrAt_eq_of_cover 2 _ (fun t _ => flushed4_eq V c t) cover4

end Cert.KernelIdeal.RegionValue

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.Concat1.lean ====
import proofs.«175130_j69063074119744_1_alg».proof.Proof.Gen.KernelIdeal.Frame
import proofs.«175130_j69063074119744_1_alg».proof.Proof.Gen.ReferenceIdeal
import proofs.«175130_j69063074119744_1_alg».proof.Proof.RefRead
import proofs.«175130_j69063074119744_1_alg».proof.Proof.LibRowwise
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! # The first join: two [100000, 128] arrays side by side and the larger of each entry and zero, block of 2000 rows by block -/

/-- The zero offsets of a whole-block access, as the constant function. -/
theorem reluJoin_offsets_zero : (![0, 0] : Fin 2 → Nat) = fun _ => 0 := funext fun a => by fin_cases a <;> rfl

/-- The [2000, 256] block the body leaves, read at row `p` and column `j`: the larger of zero and the first input block at
    `(p, j)` in the left half of the columns, of zero and the second at `(p, j - 128)` in the right half. -/
theorem reluJoin_block_apply (x0 x1 : Vec Ideal S2000x128 .f32) (p : Fin 2000) (j : Fin 256) :
    out1_2 x0 x1 (ix2 p j)
      = FloatOps.maximumf (F := Ideal)
          (if h : j.val < 128 then x0 (ix2 p ⟨j.val, h⟩) else x1 (ix2 p ⟨j.val - 128, by have := j.isLt; omega⟩))
          (FloatOps.ofBits (F := Ideal) .f32 0x00000000#32) := by
  unfold out1_2 k1_pay1 k1_pay2
  simp only [View.ld_unit_zero (S := S2000x128) reluJoin_offsets_zero, shapeCast_self]
  by_cases h : j.val < 128
  · rw [dif_pos h, View.canon_cons_of_not_mem]
    · have e : (ix2 p j : S2000x256.Idx) = r1_1.emb (ix2 p ⟨j.val, h⟩) := by
        funext a; apply Fin.ext
        match a with
        | ⟨0, _⟩ => show p.val = 0 + 1 * p.val; omega
        | ⟨1, _⟩ => show j.val = 0 + 1 * j.val; omega
      rw [e]
      exact View.canon_cons_emb r1_1 _ [] (ix2 p ⟨j.val, h⟩)
    · intro hm
      have hm' : (ix2 p j : S2000x256.Idx) ∈ r1_2.set := hm
      rw [Rect.mem_set_unit] at hm'
      have h1 : 128 ≤ j.val := (hm' (1 : Fin 2)).1
      omega
  · rw [dif_neg h]
    have e : (ix2 p j : S2000x256.Idx) = r1_2.emb (ix2 p ⟨j.val - 128, by have := j.isLt; omega⟩) := by
      funext a; apply Fin.ext
      match a with
      | ⟨0, _⟩ => show p.val = 0 + 1 * p.val; omega
      | ⟨1, _⟩ => show j.val = 128 + 1 * (j.val - 128); omega
    rw [e]
    exact View.canon_cons_emb r1_2 _ _ (ix2 p ⟨j.val - 128, by have := j.isLt; omega⟩)

/-- Two [100000, 128] arrays side by side as one [100000, 256] array: at `(r, j)` the first at `(r, j)` in the left half of
    the columns, the second at `(r, j - 128)` in the right half. -/
def reluJoin_pair (a b : S100000x128.Idx → Elt Ideal .f32) : S100000x256.Idx → Elt Ideal .f32 := fun i =>
  if h : (i 1).val < 128 then a (ix2 ⟨(i 0).val, idx2_lt0 i⟩ ⟨(i 1).val, h⟩)
  else b (ix2 ⟨(i 0).val, idx2_lt0 i⟩ ⟨(i 1).val - 128, by have := idx2_lt1 i; omega⟩)

theorem reluJoin_pair_apply (a b : S100000x128.Idx → Elt Ideal .f32) (r : Fin 100000) (j : Fin 256) :
    reluJoin_pair a b (ix2 r j)
      = if h : j.val < 128 then a (ix2 r ⟨j.val, h⟩) else b (ix2 r ⟨j.val - 128, by have := j.isLt; omega⟩) := rfl

/-- The larger of zero and each entry of the two arrays side by side. -/
def reluJoin (a b : S100000x128.Idx → Elt Ideal .f32) : S100000x256.Idx → Elt Ideal .f32 := fun i =>
  FloatOps.maximumf (F := Ideal) (reluJoin_pair a b i) (FloatOps.ofBits (F := Ideal) .f32 0x00000000#32)

/-- The three windows move together: at every grid point both input blocks and the output block have the same row-block
    index, below 50, and column-block index 0. -/
theorem reluJoin_index : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0
    ∧ win1_2.index t (0 : Fin 2) < 50 :=
  (by decide +kernel : ∀ t : Fin grid1.N, _)

/-- Every one of the 50 row blocks is some grid point's. -/
theorem reluJoin_onto : ∀ q : Fin 50, ∃ t : Fin cfg1.N, win1_2.index t = ![q.val, 0] :=
  (by decide +kernel : ∀ q : Fin 50, ∃ t : Fin grid1.N, win1_2.index t = ![q.val, 0])

/-- Row `p` of a block with row-block index below 50 is a row of the array. -/
theorem reluJoin_row_lt {T : ℕ} (hT : T < 50) (p : Fin 2000) : T * 2000 + p.val < 100000 := by
  have := p.isLt; omega

/-- The first input block at point `t`, read at `(p, q)`: row `2000·T + p` of the first array. -/
theorem reluJoin_read0 (c : Dev nD) (t : Fin cfg1.N) (p : Fin 2000) (q : Fin 128) :
    iblk1 (F := Ideal) V c 0 t (ix2 p q)
      = V c main_v46 (ix2 ⟨win1_2.index t (0 : Fin 2) * 2000 + p.val, reluJoin_row_lt (reluJoin_index t).2.2.2.2.2 p⟩ q) := by
  unfold iblk1
  show V c main_v46 (((cfg1.win 0).blk t).view.emb (ix2 p q)) = _
  refine congrArg _ ?_
  obtain ⟨e0, e1, e2, e3, e4, e5⟩ := reluJoin_index t
  funext a; apply Fin.ext
  match a with
  | ⟨0, _⟩ => show win1_0.index t (0 : Fin 2) * 2000 + 1 * p.val = win1_2.index t (0 : Fin 2) * 2000 + p.val; omega
  | ⟨1, _⟩ => show win1_0.index t (1 : Fin 2) * 128 + 1 * q.val = q.val; omega

/-- The second input block at point `t`, read at `(p, q)`: row `2000·T + p` of the second array. -/
theorem reluJoin_read1 (c : Dev nD) (t : Fin cfg1.N) (p : Fin 2000) (q : Fin 128) :
    iblk1 (F := Ideal) V c 1 t (ix2 p q)
      = V c main_v60 (ix2 ⟨win1_2.index t (0 : Fin 2) * 2000 + p.val, reluJoin_row_lt (reluJoin_index t).2.2.2.2.2 p⟩ q) := by
  unfold iblk1
  show V c main_v60 (((cfg1.win 1).blk t).view.emb (ix2 p q)) = _
  refine congrArg _ ?_
  obtain ⟨e0, e1, e2, e3, e4, e5⟩ := reluJoin_index t
  funext a; apply Fin.ext
  match a with
  | ⟨0, _⟩ => show win1_1.index t (0 : Fin 2) * 2000 + 1 * p.val = win1_2.index t (0 : Fin 2) * 2000 + p.val; omega
  | ⟨1, _⟩ => show win1_1.index t (1 : Fin 2) * 128 + 1 * q.val = q.val; omega

/-- Where the output block's element `(p, j)` sits in the output array: row `2000·T + p`, column `j`. -/
theorem reluJoin_emb_out (t : Fin cfg1.N) (p : Fin 2000) (j : Fin 256) :
    ((cfg1.win 2).blk t).view.emb (ix2 p j)
      = (ix2 ⟨win1_2.index t (0 : Fin 2) * 2000 + p.val, reluJoin_row_lt (reluJoin_index t).2.2.2.2.2 p⟩ j : S100000x256.Idx) := by
  obtain ⟨e0, e1, e2, e3, e4, e5⟩ := reluJoin_index t
  funext a; apply Fin.ext
  match a with
  | ⟨0, _⟩ => show win1_2.index t (0 : Fin 2) * 2000 + 1 * p.val = win1_2.index t (0 : Fin 2) * 2000 + p.val; omega
  | ⟨1, _⟩ => show win1_2.index t (1 : Fin 2) * 256 + 1 * j.val = j.val; omega

/-- What point `t` writes back is block `t` of the larger of zero and the two arrays side by side. -/
theorem reluJoin_flushed (c : Dev nD) (t : Fin cfg1.N) :
    (dat1 (F := Ideal) V c).flushed 2 t
      = ((cfg1.win 2).blk t).view.read (Elt Ideal) (reluJoin (V c main_v46) (V c main_v60)) := by
  show (cfg1.win 2).cut (grid1.coords t) ((dat1 V c).after 2 t) = _
  rw [after1_2]
  funext y
  obtain ⟨p, j, rfl⟩ : ∃ (p : Fin 2000) (j : Fin 256), y = ix2 p j := ⟨y 0, y 1, eq_ix2 y⟩
  show out1_2 (iblk1 V c 0 t) (iblk1 V c 1 t) (ix2 p j)
    = reluJoin (V c main_v46) (V c main_v60) (((cfg1.win 2).blk t).view.emb (ix2 p j))
  refine (reluJoin_block_apply _ _ p j).trans ?_
  rw [reluJoin_emb_out t p j]
  show _ = FloatOps.maximumf (F := Ideal) (reluJoin_pair (V c main_v46) (V c main_v60) (ix2 _ j)) (FloatOps.ofBits (F := Ideal) .f32 0x00000000#32)
  rw [reluJoin_pair_apply]
  refine congrArg (fun x => FloatOps.maximumf (F := Ideal) x (FloatOps.ofBits (F := Ideal) .f32 0x00000000#32)) ?_
  by_cases h : j.val < 128
  · rw [dif_pos h, dif_pos h]; exact reluJoin_read0 V c t p ⟨j.val, h⟩
  · rw [dif_neg h, dif_neg h]; exact reluJoin_read1 V c t p ⟨j.val - 128, by have := j.isLt; omega⟩

/-- An index of the output array is in point `t`'s block iff each coordinate is in the block's range on its axis. -/
theorem reluJoin_mem_blk (t : Fin cfg1.N) (i : S100000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v61).slice (win1_2.rect t)).set ↔ _
  rw [View.set_slice_whole, Rect.mem_set_unit]
  exact Iff.rfl

/-- The 50 blocks of 2000 rows cover the 100000 rows: row `r` is in block `r / 2000`. -/
theorem reluJoin_cover (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ := reluJoin_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [reluJoin_mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The output array after the region, as a whole. -/
theorem reluJoin_array (c : Dev nD) :
    (dat1 (F := Ideal) V c).arrAt 2 cfg1.N = reluJoin (V c main_v46) (V c main_v60) :=
  (dat1 (F := Ideal) V c).arrAt_eq_of_cover 2 (reluJoin (V c main_v46) (V c main_v60))
    (fun t _ => reluJoin_flushed V c t) reluJoin_cover

/-- Side by side is the join along the second axis. -/
theorem reluJoin_pair_eq_concatenate (a b : S100000x128.Idx → Elt Ideal .f32) :
    reluJoin_pair a b
      = concatenate Cert.ReferenceIdeal.S100000x256 1
          [⟨Cert.ReferenceIdeal.S100000x128, a⟩, ⟨Cert.ReferenceIdeal.S100000x128, b⟩]
          Cert.ReferenceIdeal.Gen.concatenates_S100000x128_S100000x128_S100000x256_d1 := by
  funext i
  obtain ⟨r, j, rfl⟩ : ∃ (r : Fin 100000) (j : Fin 256), i = ix2 r j := ⟨i 0, i 1, eq_ix2 i⟩
  rw [reluJoin_pair_apply]
  exact (Cert.LibRowwise.concatenate_cols_apply (R := 100000) (a := 128) (b := 128) (c := 256) rfl a b
    Cert.ReferenceIdeal.Gen.concatenates_S100000x128_S100000x128_S100000x256_d1 r j).symm

/-- Against any array that is zero at every index, the entrywise larger of the join and that array is the larger of
    zero and each entry of the two arrays side by side. -/
theorem reluJoin_eq_maximumf (a b : S100000x128.Idx → Elt Ideal .f32) (z : FVec Ideal Cert.ReferenceIdeal.S100000x256 .f32)
    (hz : ∀ i, z i = FloatOps.ofBits (F := Ideal) .f32 0x00000000#32) :
    reluJoin a b
      = maximumf (F := Ideal) (concatenate Cert.ReferenceIdeal.S100000x256 1
          [⟨Cert.ReferenceIdeal.S100000x128, a⟩, ⟨Cert.ReferenceIdeal.S100000x128, b⟩]
          Cert.ReferenceIdeal.Gen.concatenates_S100000x128_S100000x128_S100000x256_d1) z := by
  funext i
  show FloatOps.maximumf (F := Ideal) (reluJoin_pair a b i) (FloatOps.ofBits (F := Ideal) .f32 0x00000000#32)
    = FloatOps.maximumf (F := Ideal) (concatenate Cert.ReferenceIdeal.S100000x256 1
          [⟨Cert.ReferenceIdeal.S100000x128, a⟩, ⟨Cert.ReferenceIdeal.S100000x128, b⟩]
          Cert.ReferenceIdeal.Gen.concatenates_S100000x128_S100000x128_S100000x256_d1 i) (z i)
  rw [hz i, reluJoin_pair_eq_concatenate]

theorem concat1 (c : Dev nD) :
    (dat1 (F := Ideal) V c).arrAt 2 cfg1.N
      = maximumf (F := Ideal) (φ := .f32) (concatenate Cert.ReferenceIdeal.S100000x256 1
          [⟨Cert.ReferenceIdeal.S100000x128, V c main_v46⟩, ⟨Cert.ReferenceIdeal.S100000x128, V c main_v60⟩]
          Cert.ReferenceIdeal.Gen.concatenates_S100000x128_S100000x128_S100000x256_d1)
        (Cert.ReferenceIdeal.ReadP.val_main_call1_v0 (F := Ideal)) :=
  (reluJoin_array V c).trans (reluJoin_eq_maximumf _ _ _ fun i =>
    (Cert.ReferenceIdeal.ReadP.val_main_call1_v0_apply (F := Ideal) i).trans (Cert.ReferenceIdeal.ReadP.val_main_call1_cst_apply (F := Ideal) _))

end Cert.KernelIdeal.RegionValue

end
-- ==== Proof.Concat3.lean ====
import proofs.«175130_j69063074119744_1_alg».proof.Proof.Gen.KernelIdeal.Frame
import proofs.«175130_j69063074119744_1_alg».proof.Proof.Gen.ReferenceIdeal
import proofs.«175130_j69063074119744_1_alg».proof.Proof.LibRowwise
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! # The second join: two [100000, 128] arrays side by side, block of 2000 rows by block -/

/-- The zero offsets of a whole-block access, as the constant function. -/
theorem join3_offsets_zero : (![0, 0] : Fin 2 → Nat) = fun _ => 0 := funext fun a => by fin_cases a <;> rfl

/-- The [2000, 256] block the body leaves, read at row `p` and column `j`: the first input block at `(p, j)` in the
    left half of the columns, the second at `(p, j - 128)` in the right half. -/
theorem join3_block_apply (x0 x1 : Vec Ideal S2000x128 .f32) (p : Fin 2000) (j : Fin 256) :
    out3_2 x0 x1 (ix2 p j)
      = if h : j.val < 128 then x0 (ix2 p ⟨j.val, h⟩)
        else x1 (ix2 p ⟨j.val - 128, by have := j.isLt; omega⟩) := by
  unfold out3_2 k3_pay1 k3_pay2
  simp only [View.ld_unit_zero (S := S2000x128) join3_offsets_zero, shapeCast_self]
  by_cases h : j.val < 128
  · rw [dif_pos h, View.canon_cons_of_not_mem]
    · have e : (ix2 p j : S2000x256.Idx) = r3_1.emb (ix2 p ⟨j.val, h⟩) := by
        funext a; apply Fin.ext
        match a with
        | ⟨0, _⟩ => show p.val = 0 + 1 * p.val; omega
        | ⟨1, _⟩ => show j.val = 0 + 1 * j.val; omega
      rw [e]
      exact View.canon_cons_emb r3_1 x0 [] (ix2 p ⟨j.val, h⟩)
    · intro hm
      have hm' : (ix2 p j : S2000x256.Idx) ∈ r3_2.set := hm
      rw [Rect.mem_set_unit] at hm'
      have h1 : 128 ≤ j.val := (hm' (1 : Fin 2)).1
      omega
  · rw [dif_neg h]
    have e : (ix2 p j : S2000x256.Idx) = r3_2.emb (ix2 p ⟨j.val - 128, by have := j.isLt; omega⟩) := by
      funext a; apply Fin.ext
      match a with
      | ⟨0, _⟩ => show p.val = 0 + 1 * p.val; omega
      | ⟨1, _⟩ => show j.val = 128 + 1 * (j.val - 128); omega
    rw [e]
    exact View.canon_cons_emb r3_2 x1 _ (ix2 p ⟨j.val - 128, by have := j.isLt; omega⟩)

/-- Two [100000, 128] arrays side by side as one [100000, 256] array: at `(r, j)` the first at `(r, j)` in the left half of
    the columns, the second at `(r, j - 128)` in the right half. -/
def sideBySide (a b : S100000x128.Idx → Elt Ideal .f32) : S100000x256.Idx → Elt Ideal .f32 := fun i =>
  if h : (i 1).val < 128 then a (ix2 ⟨(i 0).val, idx2_lt0 i⟩ ⟨(i 1).val, h⟩)
  else b (ix2 ⟨(i 0).val, idx2_lt0 i⟩ ⟨(i 1).val - 128, by have := idx2_lt1 i; omega⟩)

theorem sideBySide_apply (a b : S100000x128.Idx → Elt Ideal .f32) (r : Fin 100000) (j : Fin 256) :
    sideBySide a b (ix2 r j)
      = if h : j.val < 128 then a (ix2 r ⟨j.val, h⟩) else b (ix2 r ⟨j.val - 128, by have := j.isLt; omega⟩) := rfl

/-- The three windows move together: at every grid point both input blocks and the output block have the same row-block
    index, below 50, and column-block index 0. -/
theorem join3_index : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (1 : Fin 2) = 0
    ∧ win3_2.index t (0 : Fin 2) < 50 :=
  (by decide +kernel : ∀ t : Fin grid3.N, _)

/-- Every one of the 50 row blocks is some grid point's. -/
theorem join3_onto : ∀ q : Fin 50, ∃ t : Fin cfg3.N, win3_2.index t = ![q.val, 0] :=
  (by decide +kernel : ∀ q : Fin 50, ∃ t : Fin grid3.N, win3_2.index t = ![q.val, 0])

/-- Row `p` of a block with row-block index below 50 is a row of the array. -/
theorem join3_row_lt {T : ℕ} (hT : T < 50) (p : Fin 2000) : T * 2000 + p.val < 100000 := by
  have := p.isLt; omega

/-- The first input block at point `t`, read at `(p, q)`: row `2000·T + p` of the first array. -/
theorem join3_read0 (c : Dev nD) (t : Fin cfg3.N) (p : Fin 2000) (q : Fin 128) :
    iblk3 (F := Ideal) V c 0 t (ix2 p q)
      = V c main_v110 (ix2 ⟨win3_2.index t (0 : Fin 2) * 2000 + p.val, join3_row_lt (join3_index t).2.2.2.2.2 p⟩ q) := by
  unfold iblk3
  show V c main_v110 (((cfg3.win 0).blk t).view.emb (ix2 p q)) = _
  refine congrArg _ ?_
  obtain ⟨e0, e1, e2, e3, e4, e5⟩ := join3_index t
  funext a; apply Fin.ext
  match a with
  | ⟨0, _⟩ => show win3_0.index t (0 : Fin 2) * 2000 + 1 * p.val = win3_2.index t (0 : Fin 2) * 2000 + p.val; omega
  | ⟨1, _⟩ => show win3_0.index t (1 : Fin 2) * 128 + 1 * q.val = q.val; omega

/-- The second input block at point `t`, read at `(p, q)`: row `2000·T + p` of the second array. -/
theorem join3_read1 (c : Dev nD) (t : Fin cfg3.N) (p : Fin 2000) (q : Fin 128) :
    iblk3 (F := Ideal) V c 1 t (ix2 p q)
      = V c main_v124 (ix2 ⟨win3_2.index t (0 : Fin 2) * 2000 + p.val, join3_row_lt (join3_index t).2.2.2.2.2 p⟩ q) := by
  unfold iblk3
  show V c main_v124 (((cfg3.win 1).blk t).view.emb (ix2 p q)) = _
  refine congrArg _ ?_
  obtain ⟨e0, e1, e2, e3, e4, e5⟩ := join3_index t
  funext a; apply Fin.ext
  match a with
  | ⟨0, _⟩ => show win3_1.index t (0 : Fin 2) * 2000 + 1 * p.val = win3_2.index t (0 : Fin 2) * 2000 + p.val; omega
  | ⟨1, _⟩ => show win3_1.index t (1 : Fin 2) * 128 + 1 * q.val = q.val; omega

/-- Where the output block's element `(p, j)` sits in the output array: row `2000·T + p`, column `j`. -/
theorem join3_emb_out (t : Fin cfg3.N) (p : Fin 2000) (j : Fin 256) :
    ((cfg3.win 2).blk t).view.emb (ix2 p j)
      = (ix2 ⟨win3_2.index t (0 : Fin 2) * 2000 + p.val, join3_row_lt (join3_index t).2.2.2.2.2 p⟩ j : S100000x256.Idx) := by
  obtain ⟨e0, e1, e2, e3, e4, e5⟩ := join3_index t
  funext a; apply Fin.ext
  match a with
  | ⟨0, _⟩ => show win3_2.index t (0 : Fin 2) * 2000 + 1 * p.val = win3_2.index t (0 : Fin 2) * 2000 + p.val; omega
  | ⟨1, _⟩ => show win3_2.index t (1 : Fin 2) * 256 + 1 * j.val = j.val; omega

/-- What point `t` writes back is block `t` of the two arrays side by side. -/
theorem join3_flushed (c : Dev nD) (t : Fin cfg3.N) :
    (dat3 (F := Ideal) V c).flushed 2 t
      = ((cfg3.win 2).blk t).view.read (Elt Ideal) (sideBySide (V c main_v110) (V c main_v124)) := by
  show (cfg3.win 2).cut (grid3.coords t) ((dat3 V c).after 2 t) = _
  rw [after3_2]
  funext y
  obtain ⟨p, j, rfl⟩ : ∃ (p : Fin 2000) (j : Fin 256), y = ix2 p j := ⟨y 0, y 1, eq_ix2 y⟩
  show out3_2 (iblk3 V c 0 t) (iblk3 V c 1 t) (ix2 p j)
    = sideBySide (V c main_v110) (V c main_v124) (((cfg3.win 2).blk t).view.emb (ix2 p j))
  refine (join3_block_apply _ _ p j).trans ?_
  rw [join3_emb_out t p j, sideBySide_apply]
  by_cases h : j.val < 128
  · rw [dif_pos h, dif_pos h]; exact join3_read0 V c t p ⟨j.val, h⟩
  · rw [dif_neg h, dif_neg h]; exact join3_read1 V c t p ⟨j.val - 128, by have := j.isLt; omega⟩

/-- An index of the output array is in point `t`'s block iff each coordinate is in the block's range on its axis. -/
theorem join3_mem_blk (t : Fin cfg3.N) (i : S100000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v125).slice (win3_2.rect t)).set ↔ _
  rw [View.set_slice_whole, Rect.mem_set_unit]
  exact Iff.rfl

/-- The 50 blocks of 2000 rows cover the 100000 rows: row `r` is in block `r / 2000`. -/
theorem join3_cover (i : S100000x256.Idx) :
    ∃ t : Fin cfg3.N, (cfg3.win 2).flush t = true ∧ i ∈ ((cfg3.win 2).blk t).view.set := by
  have hi0 : (i 0).val < 100000 := (i 0).isLt
  have hi1 : (i 1).val < 256 := (i 1).isLt
  obtain ⟨t, ht⟩ := join3_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [join3_mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The output array after the region, as a whole: the two input arrays side by side. -/
theorem join3_array (c : Dev nD) :
    (dat3 (F := Ideal) V c).arrAt 2 cfg3.N = sideBySide (V c main_v110) (V c main_v124) :=
  (dat3 (F := Ideal) V c).arrAt_eq_of_cover 2 (sideBySide (V c main_v110) (V c main_v124))
    (fun t _ => join3_flushed V c t) join3_cover

/-- Side by side is the join along the second axis. -/
theorem sideBySide_eq_concatenate (a b : S100000x128.Idx → Elt Ideal .f32) :
    sideBySide a b
      = concatenate Cert.ReferenceIdeal.S100000x256 1
          [⟨Cert.ReferenceIdeal.S100000x128, a⟩, ⟨Cert.ReferenceIdeal.S100000x128, b⟩]
          Cert.ReferenceIdeal.Gen.concatenates_S100000x128_S100000x128_S100000x256_d1 := by
  funext i
  obtain ⟨r, j, rfl⟩ : ∃ (r : Fin 100000) (j : Fin 256), i = ix2 r j := ⟨i 0, i 1, eq_ix2 i⟩
  rw [sideBySide_apply]
  exact (Cert.LibRowwise.concatenate_cols_apply (R := 100000) (a := 128) (b := 128) (c := 256) rfl a b
    Cert.ReferenceIdeal.Gen.concatenates_S100000x128_S100000x128_S100000x256_d1 r j).symm

theorem concat3 (c : Dev nD) :
    (dat3 (F := Ideal) V c).arrAt 2 cfg3.N
      = concatenate Cert.ReferenceIdeal.S100000x256 1
          [⟨Cert.ReferenceIdeal.S100000x128, V c main_v110⟩, ⟨Cert.ReferenceIdeal.S100000x128, V c main_v124⟩]
          Cert.ReferenceIdeal.Gen.concatenates_S100000x128_S100000x128_S100000x256_d1 :=
  (join3_array V c).trans (sideBySide_eq_concatenate _ _)

end Cert.KernelIdeal.RegionValue

end
-- ==== Proof.lean ====
/-
  The proof of `Cert.Claim`: the three frames, the (empty) idealization ledger, and the equality of the idealized kernel's
  and the idealized reference's results on the extended reals.

  The kernel's program is a two-layer graph convolution with a root-feature broadcast and mean pooling: three matrix
  products (node features by the first weight, the joined features by the second, the pooled features by the classifier)
  and two joins of two [N, 128] arrays along the feature axis (the first under a clamp at zero) run as pipelined kernels
  over row blocks; everything else — degrees, edge weights, gathers, scatter-adds, biases, pooling — is the reference's own
  host operations.  On the extended reals a product of rounded-to-bf16 operands into a zero accumulator is the plain sum
  Σⱼ A[p,j]·B[j,e], which is what the reference's product is; a join of clamped blocks is the clamp of the join.  So each
  kernel region leaves the reference's stage in its output array (the region modules), the host stretches carry
  stage to stage (`Bridge`), and both programs end at the same two functions of the arguments.  No law of the extended reals
  that needs finiteness is used: the precondition is never opened.
-/
import proofs.«175130_j69063074119744_1_alg».proof.Defs
import proofs.«175130_j69063074119744_1_alg».proof.Proof.Gen.Kernel
import proofs.«175130_j69063074119744_1_alg».proof.Proof.Gen.Kernel.Frame
import proofs.«175130_j69063074119744_1_alg».proof.Proof.Gen.KernelIdeal
import proofs.«175130_j69063074119744_1_alg».proof.Proof.Gen.KernelIdeal.Frame
import proofs.«175130_j69063074119744_1_alg».proof.Proof.Gen.ReferenceIdeal
import proofs.«175130_j69063074119744_1_alg».proof.Proof.Gen.Pre_finite_inputs
import proofs.«175130_j69063074119744_1_alg».proof.Proof.RefRun
import proofs.«175130_j69063074119744_1_alg».proof.Proof.RefRead
import proofs.«175130_j69063074119744_1_alg».proof.Proof.KernelRun
import proofs.«175130_j69063074119744_1_alg».proof.Proof.Bridge
import proofs.«175130_j69063074119744_1_alg».proof.Proof.Matmul0
import proofs.«175130_j69063074119744_1_alg».proof.Proof.Matmul2
import proofs.«175130_j69063074119744_1_alg».proof.Proof.Matmul4
import proofs.«175130_j69063074119744_1_alg».proof.Proof.Concat1
import proofs.«175130_j69063074119744_1_alg».proof.Proof.Concat3
import Idealize.ShloMosaic.Adequacy
import Idealize.ShloMosaic.Init

noncomputable section

namespace Cert.Proof

open Idealize.ShloMosaic Idealize.ShloMosaic.TcCoe Idealize.SL.Sem

/-- What the five kernel regions leave in their output arrays. -/
theorem regionFacts : Cert.KernelIdeal.Bridge.RegionFacts :=
  ⟨Cert.KernelIdeal.RegionValue.matmul0, Cert.KernelIdeal.RegionValue.concat1, Cert.KernelIdeal.RegionValue.matmul2,
    Cert.KernelIdeal.RegionValue.concat3, Cert.KernelIdeal.RegionValue.matmul4⟩

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the logits at the reference's last stage and the node features at its feature stage, as
    functions of arguments that agree. -/
theorem algebraic : Cert.algebraic_KernelIdeal_ReferenceIdeal := by
  intro m ρ m' ρ' _ hagree
  refine ⟨fun c => Cert.ReferenceIdeal.ReadP.val_main_v141 (F := Ideal) (Cert.KernelIdeal.Bridge.a0 m c) (Cert.KernelIdeal.Bridge.a1 m c)
      (Cert.KernelIdeal.Bridge.a2 m c) (Cert.KernelIdeal.Bridge.a3 m c) (Cert.KernelIdeal.Bridge.a4 m c) (Cert.KernelIdeal.Bridge.a5 m c)
      (Cert.KernelIdeal.Bridge.a6 m c) (Cert.KernelIdeal.Bridge.a7 m c) (Cert.KernelIdeal.Bridge.a8 m c) (Cert.KernelIdeal.Bridge.a9 m c),
    fun c => Cert.ReferenceIdeal.ReadP.val_main_v125 (F := Ideal) (Cert.KernelIdeal.Bridge.a0 m c) (Cert.KernelIdeal.Bridge.a1 m c)
      (Cert.KernelIdeal.Bridge.a2 m c) (Cert.KernelIdeal.Bridge.a3 m c) (Cert.KernelIdeal.Bridge.a4 m c) (Cert.KernelIdeal.Bridge.a5 m c)
      (Cert.KernelIdeal.Bridge.a6 m c) (Cert.KernelIdeal.Bridge.a7 m c), ?_, ?_⟩
  · exact (θ_run Cert.KernelIdeal.defs _ _).mono (fun _ h c =>
      ⟨(h c).1.trans (Cert.KernelIdeal.Bridge.W13_v141 m ρ c regionFacts),
       (h c).2.1.trans (Cert.KernelIdeal.Bridge.W13_v125 m ρ c regionFacts), (h c).2.2⟩)
      (Cert.KernelIdeal.RunValue.run_results (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
